-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x1600000 : Shape := ⟨2, ![2, 1600000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x20 .f32) (main_arg1 : IVec S2x1600000 32) (main_arg2 : IVec S100000 32) (main_arg3 : FVec F S20x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S20x128 .f32 := Host.absf main_arg3
  let main_cst_0 : FVec F S_ .f32 := constant S_ .f32 0x7F800000#32
  let main_v5 : FVec F S20x128 .f32 := broadcastInDim S20x128 ![] bcast_S_S20x128 main_cst_0
  let main_v6 : IVec S20x128 1 := cmpf .olt main_v4 main_v5
  let main_c_1 : IVec S_ 1 := constantI S_ 1 1#1
  let main_v7 : IVec S_ 1 := (fun x v => Host.reduce IntOp.andi x v reducesTo_S20x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x20 : Shape := ⟨2, ![100000, 20]⟩
abbrev S2x1600000 : Shape := ⟨2, ![2, 1600000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x20 : Shape := ⟨2, ![5000, 20]⟩
abbrev S5000x128 : Shape := ⟨2, ![5000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x64 : Shape := ⟨2, ![1, 64]⟩
abbrev S512x64 : Shape := ⟨2, ![512, 64]⟩

abbrev nBuf : Space → Nat
  | .hbm => 126
  | .vmem => 34
  | .smem => 0
  | _ => 0

abbrev bufTy : (tb : Table) → Fin (tcTables nBuf tb) → BufTy
  | .hbm, ⟨0, _⟩ => ⟨S100000x20, .f32⟩
  | .hbm, ⟨1, _⟩ => ⟨S2x1600000, .i32⟩
  | .hbm, ⟨2, _⟩ => ⟨S100000, .i32⟩
  | .hbm, ⟨3, _⟩ => ⟨S20x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x128, .f32⟩
  | .hbm, ⟨99, _⟩ => ⟨S1700000x1, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S_, .f32⟩
  | .hbm, ⟨109, _⟩ => ⟨S512x128, .f32⟩
  | .hbm, ⟨110, _⟩ => ⟨S100000x1, .i32⟩
  | .hbm, ⟨111, _⟩ => ⟨S512x128, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S512, .f32⟩
  | .hbm, ⟨116, _⟩ => ⟨S100000x1, .i32⟩
  | .hbm, ⟨117, _⟩ => ⟨S512, .f32⟩
  | .hbm, ⟨118, _⟩ => ⟨S_, .f32⟩
  | .hbm, ⟨119, _⟩ => ⟨S512, .f32⟩
  | .hbm, ⟨120, _⟩ => ⟨S512, .f32⟩
  | .hbm, ⟨121, _⟩ => ⟨S512x1, .f32⟩
  | .hbm, ⟨122, _⟩ => ⟨S512x128, .f32⟩
  | .hbm, ⟨123, _⟩ => ⟨S512x128, .f32⟩
  | .hbm, ⟨124, _⟩ => ⟨S1x64, .f32⟩
  | .hbm, ⟨125, _⟩ => ⟨S512x64, .f32⟩
  | .local _ .vmem, ⟨0, _⟩ => ⟨S5000x20, .f32⟩
  | .local _ .vmem, ⟨1, _⟩ => ⟨S5000x20, .f32⟩
  | .local _ .vmem, ⟨2, _⟩ => ⟨S20x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S512x128, .f32⟩
  | .local _ .vmem, ⟨31, _⟩ => ⟨S128x64, .f32⟩
  | .local _ .vmem, ⟨32, _⟩ => ⟨S1x64, .f32⟩
  | .local _ .vmem, ⟨33, _⟩ => ⟨S512x64, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x20_S5000x20_0_0 : ∀ a, (![0, 0] : Fin 2 → Nat) a + S5000x20.size a ≤ S5000x20.size a
  h_S5000x20 : 0 < S5000x20.numel
  bitsLt_bf16_f32 : FTy.bits .bf16 < FTy.bits .f32
  inb_S20x128_S20x128_0_0 : ∀ a, (![0, 0] : Fin 2 → Nat) a + S20x128.size a ≤ S20x128.size a
  h_S20x128 : 0 < S20x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S64_S1x64 : S64.ShapeCasts S1x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x20_S20x128_S5000x128_1_0_0_1_n_n_wf : DotDims.WF S5000x20 S20x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S100000x20.size a
  hwx0_0 : ∀ i : grid0.Coords, EltTy.bits .f32 = 32 ∨ (Rect.block (s := S100000x20) S5000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x128.size a ≤ S20x128.size a
  hwx0_1 : ∀ i : grid0.Coords, EltTy.bits .f32 = 32 ∨ (Rect.block (s := S20x128) S20x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S512x64.size a ≤ S512x64.size a
  hwx6_3 : ∀ i : grid6.Coords, EltTy.bits .f32 = 32 ∨ (Rect.block (s := S512x64) S512x64.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x20_S20x128_S5000x128_1_0_0_1_n_n : DotDims S5000x20 S20x128 S5000x128 where
  lhsContracting := [1]
  rhsContracting := [0]
  lhsNonContracting := [0]
  rhsNonContracting := [1]
  lhsBatch := []
  rhsBatch := []
  wf := dot_S5000x20_S20x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S20x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S512x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S512x64.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x20 : Shape := ⟨2, ![100000, 20]⟩
abbrev S2x1600000 : Shape := ⟨2, ![2, 1600000]⟩
abbrev S100000 : Shape := ⟨1, ![100000]⟩
abbrev S20x128 : Shape := ⟨2, ![20, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x64 : Shape := ⟨2, ![512, 64]⟩
abbrev S1x64 : Shape := ⟨2, ![1, 64]⟩

abbrev nBuf : Space → Nat
  | .hbm => 206
  | .vmem => 0
  | .smem => 0
  | _ => 0

abbrev hbmTy0_0 (i : Nat) : BufTy := match i % 128 with
  | 0 => ⟨S100000x20, .f32⟩
  | 1 => ⟨S2x1600000, .i32⟩
  | 2 => ⟨S100000, .i32⟩
  | 3 => ⟨S20x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S100000x128, .f32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x20, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S1700000, .f32⟩
  | 5 => ⟨S_, .f32⟩
  | 6 => ⟨S100000, .f32⟩
  | 7 => ⟨S1700000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x128, .f32⟩
  | 45 => ⟨S1700000x1, .f32⟩
  | 46 => ⟨S1700000x128, .f32⟩
  | 47 => ⟨S1700000x128, .f32⟩
  | 48 => ⟨S_, .f32⟩
  | 49 => ⟨S100000x128, .f32⟩
  | 50 => ⟨S1700000x1, .i32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S512x128, .f32⟩
  | 60 => ⟨S100000x1, .i32⟩
  | 61 => ⟨S512x128, .f32⟩
  | 62 => ⟨S_, .f32⟩
  | 63 => ⟨S100000, .f32⟩
  | 64 => ⟨S_, .f32⟩
  | 65 => ⟨S512, .f32⟩
  | 66 => ⟨S100000x1, .i32⟩
  | 67 => ⟨S512, .f32⟩
  | 68 => ⟨S_, .f32⟩
  | 69 => ⟨S512, .f32⟩
  | 70 => ⟨S512, .f32⟩
  | 71 => ⟨S512x1, .f32⟩
  | 72 => ⟨S512x128, .f32⟩
  | 73 => ⟨S512x128, .f32⟩
  | 74 => ⟨S512x64, .f32⟩
  | 75 => ⟨S1x64, .f32⟩
  | 76 => ⟨S512x64, .f32⟩
  | 77 => ⟨S512x64, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call3_cst : Ref sig .tc := ⟨.hbm, 127, rfl⟩
abbrev main_call3_v0 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_call4_v0 : Ref sig .tc := ⟨.hbm, 142, rfl⟩
abbrev main_call4_v1 : Ref sig .tc := ⟨.hbm, 143, rfl⟩
abbrev main_v97 : Ref sig .tc := ⟨.hbm, 144, rfl⟩
abbrev main_c_24 : Ref sig .tc := ⟨.hbm, 145, rfl⟩
abbrev main_v98 : Ref sig .tc := ⟨.hbm, 146, rfl⟩
abbrev main_v99 : Ref sig .tc := ⟨.hbm, 147, rfl⟩
abbrev main_c_25 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_26 : Ref sig .tc := ⟨.hbm, 154, rfl⟩
abbrev main_v105 : Ref sig .tc := ⟨.hbm, 155, rfl⟩
abbrev main_v106 : Ref sig .tc := ⟨.hbm, 156, rfl⟩
abbrev main_c_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_28 : Ref sig .tc := ⟨.hbm, 164, rfl⟩
abbrev main_v113 : Ref sig .tc := ⟨.hbm, 165, rfl⟩
abbrev main_v114 : Ref sig .tc := ⟨.hbm, 166, rfl⟩
abbrev main_c_29 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_call5_cst : Ref sig .tc := ⟨.hbm, 183, rfl⟩
abbrev main_call5_v0 : Ref sig .tc := ⟨.hbm, 184, rfl⟩
abbrev main_v129 : Ref sig .tc := ⟨.hbm, 185, rfl⟩
abbrev main_cst_31 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_32 : Ref sig .tc := ⟨.hbm, 190, rfl⟩
abbrev main_v133 : Ref sig .tc := ⟨.hbm, 191, rfl⟩
abbrev main_cst_33 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_34 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  dot_S100000x20_S20x128_S100000x128_1_0_0_1_n_n_wf : DotDims.WF S100000x20 S20x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []

variable [Facts₀]

def dot_S100000x20_S20x128_S100000x128_1_0_0_1_n_n : DotDims S100000x20 S20x128 S100000x128 where
  lhsContracting := [1]
  rhsContracting := [0]
  lhsNonContracting := [0]
  rhsNonContracting := [1]
  lhsBatch := []
  rhsBatch := []
  wf := dot_S100000x20_S20x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.Chains.lean ====
/-
  The network both programs compute, as one function of the argument arrays.

  A graph of 100000 nodes is given by an edge table [2, 1600000] (row 0 the sources, row 1 the destinations); every
  node also gets a self loop, so there are 1700000 edges in all.  With d(v) the number of edges ending at v, an edge
  (s, t) carries the weight rsqrt d(s) * rsqrt d(t) (a node with no edge ending at it weighs 0).  One layer maps node
  features h to max (A (h W) + b, 0), where (A y)(t) is the sum over the edges ending at t of weight * y(source); three
  layers follow one another, the nodes are averaged per graph (a graph with no node divides by 1), and a last affine
  map gives the result [512, 64].

  The sparse steps (gather the sources' rows, scale, add up at the destinations; the per-graph average) are written
  once here, as the host operations both programs apply, and are never opened by the proof: what the proof compares are
  the dense steps between them.  An index below zero is first wrapped by the number of nodes, as both programs do.
-/
import proofs.«145999_j15487652069425_1_alg».proof.ReferenceIdeal

noncomputable section

namespace Cert.Chains

open Idealize.ShloMosaic Cert.ReferenceIdeal Cert.ReferenceIdeal.Facts₀

variable {F : FTy → Type} [FloatOps F] [Cert.ReferenceIdeal.Facts₀]

/-- The edges' sources: row 0 of the edge table, then the self loops 0, 1, …, 99999. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations: row 1 of the edge table, then the self loops. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index as a gather takes it: an index below zero is moved up by the number of nodes; laid as a column. -/
def wrapIdx (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Per node, rsqrt of the number of edges ending there, and 0 where there is none. -/
def dinvOf (dst : (⟨S1700000, .i32⟩ : BufTy).Contents (Elt F)) : (⟨S100000, .f32⟩ : BufTy).Contents (Elt F) :=
  select
    (cmpf .ogt
      (Host.scatterAdd scatter_S100000_S1700000x1_S1700000_n_0_0_1 (broadcastInDim S100000 ![] bcast_S_S100000 (constant (F := F) S_ .f32 0x00000000#32)) (broadcastInDim S1700000x1 ![0] bcast_S1700000_S1700000x1_0 dst) (broadcastInDim S1700000 ![] bcast_S_S1700000 (constant (F := F) S_ .f32 0x3F800000#32)))
      (broadcastInDim S100000 ![] bcast_S_S100000 (constant (F := F) S_ .f32 0x00000000#32)))
    (Host.rsqrt
      (Host.scatterAdd scatter_S100000_S1700000x1_S1700000_n_0_0_1 (broadcastInDim S100000 ![] bcast_S_S100000 (constant (F := F) S_ .f32 0x00000000#32)) (broadcastInDim S1700000x1 ![0] bcast_S1700000_S1700000x1_0 dst) (broadcastInDim S1700000 ![] bcast_S_S1700000 (constant (F := F) S_ .f32 0x3F800000#32))))
    (broadcastInDim S100000 ![] bcast_S_S100000 (constant (F := F) S_ .f32 0x00000000#32))

/-- Per edge, the product of its two end nodes' `dinvOf`. -/
def normOf (src dst : (⟨S1700000, .i32⟩ : BufTy).Contents (Elt F)) : (⟨S1700000, .f32⟩ : BufTy).Contents (Elt F) :=
  mulf (Host.gather gather_S100000_S1700000x1_S1700000_n_0_n_n_0_1_1 (dinvOf dst) (wrapIdx src))
    (Host.gather gather_S100000_S1700000x1_S1700000_n_0_n_n_0_1_1 (dinvOf dst) (wrapIdx dst))

/-- Message passing: each edge takes its source's row of `y`, scaled by the edge's weight; the rows are added up at
    the edges' destinations, from zero. -/
def aggOf (src dst : (⟨S1700000, .i32⟩ : BufTy).Contents (Elt F)) (norm : (⟨S1700000, .f32⟩ : BufTy).Contents (Elt F))
    (y : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 dst)
    (mulf (Host.gather gather_S100000x128_S1700000x1_S1700000x128_1_0_n_n_0_1_1128 y (wrapIdx src))
      (broadcastInDim S1700000x128 ![0, 1] bcast_S1700000x1_S1700000x128_0_1 (broadcastInDim S1700000x1 ![0] bcast_S1700000_S1700000x1_0 norm)))

/-- The per-graph average of the nodes' rows: the rows added up per graph, over the larger of the graph's number of
    nodes and 1. -/
def poolOf (batch : (⟨S100000, .i32⟩ : BufTy).Contents (Elt F)) (h : (⟨S100000x128, .f32⟩ : BufTy).Contents (Elt F)) :
    (⟨S512x128, .f32⟩ : BufTy).Contents (Elt F) :=
  Host.divf
    (Host.scatterAdd scatter_S512x128_S100000x1_S100000x128_1_0_0_1 (broadcastInDim S512x128 ![] bcast_S_S512x128 (constant (F := F) S_ .f32 0x00000000#32)) (broadcastInDim S100000x1 ![0] bcast_S100000_S100000x1_0 batch) h)
    (broadcastInDim S512x128 ![0, 1] bcast_S512x1_S512x128_0_1 (broadcastInDim S512x1 ![0] bcast_S512_S512x1_0
      (maximumf
        (Host.scatterAdd scatter_S512_S100000x1_S100000_n_0_0_1 (broadcastInDim S512 ![] bcast_S_S512 (constant (F := F) S_ .f32 0x00000000#32)) (broadcastInDim S100000x1 ![0] bcast_S100000_S100000x1_0 batch) (broadcastInDim S100000 ![] bcast_S_S100000 (constant (F := F) S_ .f32 0x3F800000#32)))
        (broadcastInDim S512 ![] bcast_S_S512 (constant (F := F) S_ .f32 0x3F800000#32)))))

/-- The first layer's dense step: node features [100000, 20] times the weights [20, 128]. -/
def dense1 (x : (⟨S100000x20, .f32⟩ : BufTy).Contents (Elt F)) (w : (⟨S20x128, .f32⟩ : BufTy).Contents (Elt F)) :
    (⟨S100000x128, .f32⟩ : BufTy).Contents (Elt F) :=
  Host.dotGeneral dot_S100000x20_S20x128_S100000x128_1_0_0_1_n_n none x w

/-- The later layers' dense step: node features [100000, 128] times the weights [128, 128]. -/
def dense2 (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- A layer's closing step with the bias given as a one-row table: add the row to every node's row, then the larger of
    that and 0. -/
def biasReluRow (a : (⟨S100000x128, .f32⟩ : BufTy).Contents (Elt F)) (row : (⟨S1x128, .f32⟩ : BufTy).Contents (Elt F)) :
    (⟨S100000x128, .f32⟩ : BufTy).Contents (Elt F) :=
  maximumf (addf a (broadcastInDim S100000x128 ![0, 1] bcast_S1x128_S100000x128_0_1 row))
    (broadcastInDim S100000x128 ![] bcast_S_S100000x128 (constant (F := F) S_ .f32 0x00000000#32))

/-- The same with the bias given as a vector. -/
def biasRelu (a : (⟨S100000x128, .f32⟩ : BufTy).Contents (Elt F)) (b : (⟨S128, .f32⟩ : BufTy).Contents (Elt F)) :
    (⟨S100000x128, .f32⟩ : BufTy).Contents (Elt F) :=
  biasReluRow a (broadcastInDim S1x128 ![1] bcast_S128_S1x128_1 b)

/-- The last affine map with its bias given as a one-row table. -/
def headRow (p : (⟨S512x128, .f32⟩ : BufTy).Contents (Elt F)) (w : (⟨S128x64, .f32⟩ : BufTy).Contents (Elt F))
    (row : (⟨S1x64, .f32⟩ : BufTy).Contents (Elt F)) : (⟨S512x64, .f32⟩ : BufTy).Contents (Elt F) :=
  addf (Host.dotGeneral dot_S512x128_S128x64_S512x64_1_0_0_1_n_n none p w) (broadcastInDim S512x64 ![0, 1] bcast_S1x64_S512x64_0_1 row)

/-- The same with the bias given as a vector. -/
def head (p : (⟨S512x128, .f32⟩ : BufTy).Contents (Elt F)) (w : (⟨S128x64, .f32⟩ : BufTy).Contents (Elt F))
    (b : (⟨S64, .f32⟩ : BufTy).Contents (Elt F)) : (⟨S512x64, .f32⟩ : BufTy).Contents (Elt F) :=
  headRow p w (broadcastInDim S1x64 ![1] bcast_S64_S1x64_1 b)

/-- The whole network. -/
def model (x : (⟨S100000x20, .f32⟩ : BufTy).Contents (Elt F)) (e : (⟨S2x1600000, .i32⟩ : BufTy).Contents (Elt F))
    (batch : (⟨S100000, .i32⟩ : BufTy).Contents (Elt F))
    (w1 : (⟨S20x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F))
    (wo : (⟨S128x64, .f32⟩ : BufTy).Contents (Elt F)) (bo : (⟨S64, .f32⟩ : BufTy).Contents (Elt F)) :
    (⟨S512x64, .f32⟩ : BufTy).Contents (Elt F) :=
  head (poolOf batch
    (biasRelu (aggOf (srcOf e) (dstOf e) (normOf (srcOf e) (dstOf e))
      (dense2 (biasRelu (aggOf (srcOf e) (dstOf e) (normOf (srcOf e) (dstOf e))
        (dense2 (biasRelu (aggOf (srcOf e) (dstOf e) (normOf (srcOf e) (dstOf e)) (dense1 x w1)) b1) w2)) b2) w3)) b3)) wo bo

end Cert.Chains

end
-- ==== Proof.LibVecRow.lean ====
/-
  A vector laid as a one-row matrix, two ways.

  A vector of length a can be turned into a matrix [1, a] by a reshape or by a broadcast that puts the vector's axis
  on the matrix's second axis. Both matrices read, at (u, i), the vector's entry i: they are one array. Stated over
  the library only, for any element type.
-/
import Idealize.ShloMosaic.Lib.ValueLayout

noncomputable section

namespace Cert.LibVecRow

open Idealize.ShloMosaic Idealize.ShloMosaic.ValueIdx

/-- A vector reshaped to a one-row matrix is the vector broadcast along the second axis: both read, at (u, i),
    the vector's entry i. -/
theorem shapeCast_vec_eq_broadcastInDim {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply]
  symm
  refine broadcastInDim_apply ![1] hb x (ix2 u i) (ix1 i) ?_
  intro c
  have hc : c = 0 := Subsingleton.elim _ _
  subst hc
  show i.val = if a = 1 then 0 else i.val
  have := i.isLt
  split <;> omega

end Cert.LibVecRow

end
-- ==== Proof.KKeeps.lean ====
/-
  What each stretch of host operations leaves alone.

  Every buffer of the program is written by exactly one operation.  So a buffer that a stretch of host operations
  does not write holds after the stretch what it held before: stated here once per stretch, with the list of the
  buffers the stretch writes.  (That a kernel launch leaves every buffer but its own arrays alone is part of the
  launch's own statement.)
-/
import proofs.«145999_j15487652069425_1_alg».proof.Proof.Gen.KernelIdeal.Frame

noncomputable section

namespace Cert.KernelIdeal.Keeps

open Cert.KernelIdeal Cert.KernelIdeal.Gen
open Idealize.ShloMosaic Idealize.ShloMosaic.TcCoe

variable {F : FTy → Type} [FloatOps F]

/-- The buffers `hostOps0` writes, in order. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_1` writes, in order. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps0_2` writes, in order. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps1` writes, in order. -/
abbrev hostOps1_W : List (Ref sig .tc) := [main_c_6, main_v31, main_v32, main_c_7, main_v33, main_v34, main_v35, main_v36, main_v37, main_v38, main_v39, main_v40, main_cst_8, main_v41, main_v42, main_v43, main_v44]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps3` writes, in order. -/
abbrev hostOps3_W : List (Ref sig .tc) := [main_c_9, main_v47, main_v48, main_c_10, main_v49, main_v50, main_v51, main_v52, main_v53, main_v54, main_v55, main_v56, main_cst_11, main_v57, main_v58, main_v59, main_v60]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps5` writes, in order. -/
abbrev hostOps5_W : List (Ref sig .tc) := [main_c_12, main_v63, main_v64, main_c_13, main_v65, main_v66, main_v67, main_v68, main_v69, main_v70, main_v71, main_v72, main_cst_14, main_v73, main_v74, main_v75, main_v76]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers `hostOps6` writes, in order. -/
abbrev hostOps6_W : List (Ref sig .tc) := [main_cst_15, main_v78, main_v79, main_v80, main_cst_16, main_v81, main_cst_17, main_v82, main_v83, main_v84, main_cst_18, main_v85, main_v86, main_v87, main_v88, main_v89, main_v90]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg)

/-- A buffer `hostOps0` does not write is after it as before it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- A buffer `hostOps0_1` does not write is after it as before it. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- A buffer `hostOps0_2` does not write is after it as before it. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- A buffer `hostOps1` does not write is after it as before it. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-- A buffer `hostOps3` does not write is after it as before it. -/
theorem W8_of (c : Dev nD) (r : Ref sig .tc) (h : r ∉ hostOps3_W) :
    W8 m ρ c (Proc.devRef .tc r) = W7 m ρ c (Proc.devRef .tc r) :=
  StableHlo.after_of_writes_sub hostOps3 _ hostOps3_writes h

/-- A buffer `hostOps5` does not write is after it as before it. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- A buffer `hostOps6` does not write is after it as before it. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-! ## A buffer carried back from a later boundary

The boundaries are numbered as the fold numbers them: 3 is the first launch's entry; a launch or a stretch of host
operations lies between two consecutive ones.  A buffer that no launch from the first one on takes as one of its
arrays, and that no stretch in between writes, holds at a later boundary what it held at boundary 3; an argument array
holds at boundary 3 what it held at launch. -/

variable (c : Dev nD) (r : Ref sig .tc)

theorem at3 (h0 : r ∉ hostOps0_W) (h1 : r ∉ hostOps0_1_W) (h2 : r ∉ hostOps0_2_W) :
    W3 m ρ c (Proc.devRef .tc r) = m ((c : Thread nD τ).loc r) :=
  (W3_of m ρ c r h2).trans ((W2_of m ρ c r h1).trans ((W1_of m ρ c r h0).trans rfl))

theorem at4 (h4 : ∀ w, Pipeline.arrRef spec0 w ≠ r) :
    W4 m ρ c (Proc.devRef .tc r) = W3 m ρ c (Proc.devRef .tc r) := W4_of_ne m ρ c r h4

theorem at5 (h4 : ∀ w, Pipeline.arrRef spec0 w ≠ r) (h5 : r ∉ hostOps1_W) :
    W5 m ρ c (Proc.devRef .tc r) = W3 m ρ c (Proc.devRef .tc r) := (W5_of m ρ c r h5).trans (at4 m ρ c r h4)

theorem at6 (h4 : ∀ w, Pipeline.arrRef spec0 w ≠ r) (h5 : r ∉ hostOps1_W) (h6 : ∀ w, Pipeline.arrRef spec1 w ≠ r) :
    W6 m ρ c (Proc.devRef .tc r) = W3 m ρ c (Proc.devRef .tc r) := (W6_of_ne m ρ c r h6).trans (at5 m ρ c r h4 h5)

theorem at7 (h4 : ∀ w, Pipeline.arrRef spec0 w ≠ r) (h5 : r ∉ hostOps1_W) (h6 : ∀ w, Pipeline.arrRef spec1 w ≠ r)
    (h7 : ∀ w, Pipeline.arrRef spec2 w ≠ r) :
    W7 m ρ c (Proc.devRef .tc r) = W3 m ρ c (Proc.devRef .tc r) := (W7_of_ne m ρ c r h7).trans (at6 m ρ c r h4 h5 h6)

theorem at8 (h4 : ∀ w, Pipeline.arrRef spec0 w ≠ r) (h5 : r ∉ hostOps1_W) (h6 : ∀ w, Pipeline.arrRef spec1 w ≠ r)
    (h7 : ∀ w, Pipeline.arrRef spec2 w ≠ r) (h8 : r ∉ hostOps3_W) :
    W8 m ρ c (Proc.devRef .tc r) = W3 m ρ c (Proc.devRef .tc r) := (W8_of m ρ c r h8).trans (at7 m ρ c r h4 h5 h6 h7)

theorem at9 (h4 : ∀ w, Pipeline.arrRef spec0 w ≠ r) (h5 : r ∉ hostOps1_W) (h6 : ∀ w, Pipeline.arrRef spec1 w ≠ r)
    (h7 : ∀ w, Pipeline.arrRef spec2 w ≠ r) (h8 : r ∉ hostOps3_W) (h9 : ∀ w, Pipeline.arrRef spec3 w ≠ r) :
    W9 m ρ c (Proc.devRef .tc r) = W3 m ρ c (Proc.devRef .tc r) := (W9_of_ne m ρ c r h9).trans (at8 m ρ c r h4 h5 h6 h7 h8)

theorem at10 (h4 : ∀ w, Pipeline.arrRef spec0 w ≠ r) (h5 : r ∉ hostOps1_W) (h6 : ∀ w, Pipeline.arrRef spec1 w ≠ r)
    (h7 : ∀ w, Pipeline.arrRef spec2 w ≠ r) (h8 : r ∉ hostOps3_W) (h9 : ∀ w, Pipeline.arrRef spec3 w ≠ r)
    (h10 : ∀ w, Pipeline.arrRef spec4 w ≠ r) :
    W10 m ρ c (Proc.devRef .tc r) = W3 m ρ c (Proc.devRef .tc r) :=
  (W10_of_ne m ρ c r h10).trans (at9 m ρ c r h4 h5 h6 h7 h8 h9)

theorem at11 (h4 : ∀ w, Pipeline.arrRef spec0 w ≠ r) (h5 : r ∉ hostOps1_W) (h6 : ∀ w, Pipeline.arrRef spec1 w ≠ r)
    (h7 : ∀ w, Pipeline.arrRef spec2 w ≠ r) (h8 : r ∉ hostOps3_W) (h9 : ∀ w, Pipeline.arrRef spec3 w ≠ r)
    (h10 : ∀ w, Pipeline.arrRef spec4 w ≠ r) (h11 : r ∉ hostOps5_W) :
    W11 m ρ c (Proc.devRef .tc r) = W3 m ρ c (Proc.devRef .tc r) :=
  (W11_of m ρ c r h11).trans (at10 m ρ c r h4 h5 h6 h7 h8 h9 h10)

theorem at12 (h4 : ∀ w, Pipeline.arrRef spec0 w ≠ r) (h5 : r ∉ hostOps1_W) (h6 : ∀ w, Pipeline.arrRef spec1 w ≠ r)
    (h7 : ∀ w, Pipeline.arrRef spec2 w ≠ r) (h8 : r ∉ hostOps3_W) (h9 : ∀ w, Pipeline.arrRef spec3 w ≠ r)
    (h10 : ∀ w, Pipeline.arrRef spec4 w ≠ r) (h11 : r ∉ hostOps5_W) (h12 : ∀ w, Pipeline.arrRef spec5 w ≠ r) :
    W12 m ρ c (Proc.devRef .tc r) = W3 m ρ c (Proc.devRef .tc r) :=
  (W12_of_ne m ρ c r h12).trans (at11 m ρ c r h4 h5 h6 h7 h8 h9 h10 h11)

theorem at13 (h4 : ∀ w, Pipeline.arrRef spec0 w ≠ r) (h5 : r ∉ hostOps1_W) (h6 : ∀ w, Pipeline.arrRef spec1 w ≠ r)
    (h7 : ∀ w, Pipeline.arrRef spec2 w ≠ r) (h8 : r ∉ hostOps3_W) (h9 : ∀ w, Pipeline.arrRef spec3 w ≠ r)
    (h10 : ∀ w, Pipeline.arrRef spec4 w ≠ r) (h11 : r ∉ hostOps5_W) (h12 : ∀ w, Pipeline.arrRef spec5 w ≠ r)
    (h13 : r ∉ hostOps6_W) :
    W13 m ρ c (Proc.devRef .tc r) = W3 m ρ c (Proc.devRef .tc r) :=
  (W13_of m ρ c r h13).trans (at12 m ρ c r h4 h5 h6 h7 h8 h9 h10 h11 h12)

end Cert.KernelIdeal.Keeps

end
-- ==== Proof.KStretches.lean ====
/-
  The idealized kernel's host stretches, read as the network's sparse steps.

  Between two kernel launches the program runs a short line of host operations.  Each line is read here over ANY
  contents `Wv` of the buffers before it: the buffer the next launch (or the next line) reads holds one of the network's
  named steps — the edges' sources and destinations, their weights, a layer's message passing, the per-graph average, a
  bias laid as a one-row table — applied to the contents of the buffers the line reads.
-/
import proofs.«145999_j15487652069425_1_alg».proof.Proof.Gen.KernelIdeal.Launch
import proofs.«145999_j15487652069425_1_alg».proof.Proof.Gen.ReferenceIdeal
import proofs.«145999_j15487652069425_1_alg».proof.Proof.Chains
import Idealize.ShloMosaic.Lib.StableHlo.Run

noncomputable section

namespace Cert.KernelIdeal.Stretch

open Idealize.ShloMosaic Idealize.ShloMosaic.StableHlo Cert.KernelIdeal Cert.KernelIdeal.Gen

variable {F : FTy → Type} [FloatOps F] (Wv : Valuation τ sig (Elt F))

/-! ## Before the first launch: the edges and their weights -/

/-- The edges' sources: row 0 of the edge table, then the self loops. -/
theorem src_eq :
    StableHlo.after (hostOps0_2 (F := F)) (StableHlo.after hostOps0_1 (StableHlo.after hostOps0 Wv)) (Proc.devRef .tc main_v3)
      = Cert.Chains.srcOf (F := F) (Wv (Proc.devRef .tc main_arg1)) := by
  after_results_simp
  rfl

/-- The edges' destinations: row 1 of the edge table, then the self loops. -/
theorem dst_eq :
    StableHlo.after (hostOps0_2 (F := F)) (StableHlo.after hostOps0_1 (StableHlo.after hostOps0 Wv)) (Proc.devRef .tc main_v6)
      = Cert.Chains.dstOf (F := F) (Wv (Proc.devRef .tc main_arg1)) := by
  after_results_simp
  rfl

/-- The edges' weights: the product of the two end nodes' rsqrt of the number of edges ending there. -/
theorem norm_eq :
    StableHlo.after (hostOps0_2 (F := F)) (StableHlo.after hostOps0_1 (StableHlo.after hostOps0 Wv)) (Proc.devRef .tc main_v29)
      = Cert.Chains.normOf (F := F) (Cert.Chains.srcOf (Wv (Proc.devRef .tc main_arg1))) (Cert.Chains.dstOf (Wv (Proc.devRef .tc main_arg1))) := by
  after_results_simp
  simp only [TRef.toBuf, TRef.ofBuf, cast_eq, id]
  rfl

/-! ## After each layer's dense step: message passing, and the layer's bias as a one-row table -/

theorem agg1_eq :
    StableHlo.after (hostOps1 (F := F)) Wv (Proc.devRef .tc main_v43)
      = Cert.Chains.aggOf (F := F) (Wv (Proc.devRef .tc main_v3)) (Wv (Proc.devRef .tc main_v6)) (Wv (Proc.devRef .tc main_v29)) (Wv (Proc.devRef .tc main_v30)) := by
  after_results_simp
  rfl

theorem row1_eq :
    StableHlo.after (hostOps1 (F := F)) Wv (Proc.devRef .tc main_v44)
      = shapeCast S1x128 (Wv (Proc.devRef .tc main_arg4)) Facts₀.shapeCasts_S128_S1x128 := by
  after_results_simp
  rfl

theorem agg2_eq :
    StableHlo.after (hostOps3 (F := F)) Wv (Proc.devRef .tc main_v59)
      = Cert.Chains.aggOf (F := F) (Wv (Proc.devRef .tc main_v3)) (Wv (Proc.devRef .tc main_v6)) (Wv (Proc.devRef .tc main_v29)) (Wv (Proc.devRef .tc main_v46)) := by
  after_results_simp
  rfl

theorem row2_eq :
    StableHlo.after (hostOps3 (F := F)) Wv (Proc.devRef .tc main_v60)
      = shapeCast S1x128 (Wv (Proc.devRef .tc main_arg6)) Facts₀.shapeCasts_S128_S1x128 := by
  after_results_simp
  rfl

theorem agg3_eq :
    StableHlo.after (hostOps5 (F := F)) Wv (Proc.devRef .tc main_v75)
      = Cert.Chains.aggOf (F := F) (Wv (Proc.devRef .tc main_v3)) (Wv (Proc.devRef .tc main_v6)) (Wv (Proc.devRef .tc main_v29)) (Wv (Proc.devRef .tc main_v62)) := by
  after_results_simp
  rfl

theorem row3_eq :
    StableHlo.after (hostOps5 (F := F)) Wv (Proc.devRef .tc main_v76)
      = shapeCast S1x128 (Wv (Proc.devRef .tc main_arg8)) Facts₀.shapeCasts_S128_S1x128 := by
  after_results_simp
  rfl

/-! ## After the last layer: the per-graph average, and the last bias as a one-row table -/

theorem pool_eq :
    StableHlo.after (hostOps6 (F := F)) Wv (Proc.devRef .tc main_v89)
      = Cert.Chains.poolOf (F := F) (Wv (Proc.devRef .tc main_arg2)) (Wv (Proc.devRef .tc main_v77)) := by
  after_results_simp
  rfl

theorem rowOut_eq :
    StableHlo.after (hostOps6 (F := F)) Wv (Proc.devRef .tc main_v90)
      = shapeCast S1x64 (Wv (Proc.devRef .tc main_arg10)) Facts₀.shapeCasts_S64_S1x64 := by
  after_results_simp
  rfl

end Cert.KernelIdeal.Stretch

end
-- ==== Proof.KRun.lean ====
/-
  The idealized kernel's run with its result named.

  The program is seven kernel launches among stretches of host operations.  Its run ends with every buffer that
  outlives a launch at the contents the fold of the stretches and launches leaves there; read at the result
  buffer this names the result, and read at the arguments it says they are unchanged.
-/
import proofs.«145999_j15487652069425_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the fold's
    contents there, and the argument arrays end as launched. -/
theorem run_named : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Named

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.KRegion0.lean ====
/-
  The first layer's dense step, as the idealized kernel computes it.

  The kernel walks the 100000 feature rows in 20 tiles of 5000 rows. At tile t it multiplies rows 5000 t … 5000 t + 4999
  of the feature table [100000, 20] by the whole weight table [20, 128] and writes the product to rows
  5000 t … 5000 t + 4999 of the output [100000, 128]. At the extended reals a change of float format is the identity
  and a product into the zero accumulator is the finite sum over the 20 contracted coordinates, so entry (p, q) of
  tile t's product is entry (5000 t + p, q) of the whole product; the 20 tiles cover every row, so the output array
  is the whole product.
-/
import proofs.«145999_j15487652069425_1_alg».proof.Proof.Gen.KernelIdeal.Frame
import proofs.«145999_j15487652069425_1_alg».proof.Proof.Gen.ReferenceIdeal
import proofs.«145999_j15487652069425_1_alg».proof.Proof.Chains
import proofs.«145999_j15487652069425_1_alg».proof.Proof.LibTileMatmul
import Idealize.ShloMosaic.Lib.Pipeline.Value
import Idealize.ShloMosaic.Lib.ValueIdx

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- A whole-tile access starts at row 0, column 0. -/
theorem zero_offsets0 : (![0, 0] : Fin 2 → Nat) = fun _ => 0 := funext fun a => by fin_cases a <;> rfl

/-- The block indices over the 20 grid points: the feature rows and the output rows move with the point, 5000 rows
    a point, and stay in column block 0; the weights are one block. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tile's product at (p, q), for a tile whose row p is row i of the feature table X and whose weights agree
    with W down column q: entry (i, q) of the whole product X · W. A change of float format is the identity at the
    extended reals, and the product into the zero accumulator is the finite sum over the 20 contracted coordinates,
    the same sum the whole product has at (i, q). -/
theorem product_of_tile0 (x0 : Vec Ideal S5000x20 .f32) (x1 : Vec Ideal S20x128 .f32)
    (X : Vec Ideal S100000x20 .f32) (W : Vec Ideal S20x128 .f32)
    (p : Fin 5000) (q : Fin 128) (i : Fin 100000)
    (hrow : ∀ k : Fin 20, x0 (ix2 p k) = X (ix2 i k)) (hW : ∀ k : Fin 20, x1 (ix2 k q) = W (ix2 k q)) :
    k0_pay1 (F := Ideal) x0 x1 (ix2 p q) = Cert.Chains.dense1 (F := Ideal) X W (ix2 i q) := by
  unfold k0_pay1 Cert.Chains.dense1
  exact TileMatmul.matmul_tile_eq_dotGeneral _ _ none none _ _ X W p q i hrow hW

/-- Row p of the feature block at point t is row 5000 t + p of the feature table. -/
theorem feature_block0 (c : Dev nD) (t : Fin cfg0.N) (p : Fin 5000) (k : Fin 20) (i : Fin 100000)
    (hi : i.val = t.val * 5000 + p.val) :
    iblk0 V c 0 t (ix2 p k) = V c main_arg0 (ix2 i k) := by
  obtain ⟨e0, e1, -, -, -, -⟩ := block_index0 t
  unfold iblk0
  rw [View.read_apply]
  show V c main_arg0 _ = V c main_arg0 _
  congr 1
  funext a
  apply Fin.ext
  match a with
  | ⟨0, _⟩ => show win0_0.index t (0 : Fin 2) * 5000 + 1 * p.val = i.val; omega
  | ⟨1, _⟩ => show win0_0.index t (1 : Fin 2) * 20 + 1 * k.val = k.val; omega

/-- The weight block at every point is the whole weight table. -/
theorem weight_block0 (c : Dev nD) (t : Fin cfg0.N) (k : Fin 20) (q : Fin 128) :
    iblk0 V c 1 t (ix2 k q) = V c main_arg3 (ix2 k q) := by
  obtain ⟨-, -, e2, e3, -, -⟩ := block_index0 t
  unfold iblk0
  rw [View.read_apply]
  show V c main_arg3 _ = V c main_arg3 _
  congr 1
  funext a
  apply Fin.ext
  match a with
  | ⟨0, _⟩ => show win0_1.index t (0 : Fin 2) * 20 + 1 * k.val = k.val; omega
  | ⟨1, _⟩ => show win0_1.index t (1 : Fin 2) * 128 + 1 * q.val = q.val; omega

/-- A tile P of 5000 rows whose row p is row 5000 t + p of an array G is what the output window's block at point t
    reads off G. -/
theorem tile_is_block0 (P : Vec Ideal S5000x128 .f32) (G : Vec Ideal S100000x128 .f32) (t : Fin cfg0.N)
    (h : ∀ (p : Fin 5000) (q : Fin 128) (i : Fin 100000), i.val = t.val * 5000 + p.val → P (ix2 p q) = G (ix2 i q)) :
    (cfg0.win 2).cut (grid0.coords t) P = ((cfg0.win 2).blk t).view.read (Elt Ideal) G := by
  obtain ⟨-, -, -, -, e0, e1⟩ := block_index0 t
  have ht : t.val < 20 := lt_of_lt_of_eq t.isLt N_0
  funext j
  rw [View.read_apply]
  have hj0 : (j 0).val < 5000 := (j 0).isLt
  have hj1 : (j 1).val < 128 := (j 1).isLt
  have hl : (cfg0.win 2).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  have hr : ((cfg0.win 2).blk t).view.emb j
      = ix2 (⟨t.val * 5000 + (j 0).val, by omega⟩ : Fin 100000) (⟨(j 1).val, hj1⟩ : Fin 128) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 128 + 1 * (j 1).val = (j 1).val; omega)
  show P ((cfg0.win 2).xinj (grid0.coords t) j) = G (((cfg0.win 2).blk t).view.emb j)
  rw [hl, hr]
  exact h _ _ _ rfl

/-- What point t writes back is block t of the whole product of the feature table with the weights. -/
theorem flushed0_eq (c : Dev nD) (t : Fin cfg0.N) :
    (dat0 (F := Ideal) V c).flushed 2 t
      = ((cfg0.win 2).blk t).view.read (Elt Ideal) (Cert.Chains.dense1 (F := Ideal) (V c main_arg0) (V c main_arg3)) := by
  show (cfg0.win 2).cut (grid0.coords t) ((dat0 V c).after 2 t) = _
  rw [after0_2]
  unfold out0_2
  rw [View.canon_unit_zero zero_offsets0]
  simp only [View.ld_unit_zero (S := S5000x20) zero_offsets0, View.ld_unit_zero (S := S20x128) zero_offsets0]
  refine tile_is_block0 (k0_pay1 (F := Ideal) (iblk0 V c 0 t) (iblk0 V c 1 t))
    (Cert.Chains.dense1 (F := Ideal) (V c main_arg0) (V c main_arg3)) t fun p q i hi => ?_
  exact product_of_tile0 (iblk0 V c 0 t) (iblk0 V c 1 t) (V c main_arg0) (V c main_arg3) p q i
    (fun k => feature_block0 V c t p k i hi) (fun k => weight_block0 V c t k q)

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- REGION 0: the 20 blocks of 5000 rows tile the output array (row r lies in the block of point r / 5000), so the
    array ends holding the whole product of the feature table with the first layer's weights. -/
theorem region0 (c : Dev nD) :
    (dat0 (F := Ideal) V c).arrAt 2 cfg0.N = Cert.Chains.dense1 (F := Ideal) (V c main_arg0) (V c main_arg3) := by
  refine (dat0 (F := Ideal) V c).arrAt_eq_of_cover 2 (Cert.Chains.dense1 (F := Ideal) (V c main_arg0) (V c main_arg3))
    (fun t _ => flushed0_eq V c t) fun i => ?_
  have hi0 : (i 0).val < 100000 := (i 0).isLt
  have hi1 : (i 1).val < 128 := (i 1).isLt
  have hN : cfg0.N = 20 := N_0
  have hq : (i 0).val / 5000 < cfg0.N := by rw [hN]; omega
  obtain ⟨-, -, -, -, e0, e1⟩ := block_index0 ⟨(i 0).val / 5000, hq⟩
  refine ⟨⟨(i 0).val / 5000, hq⟩, flush0_2 _, ?_⟩
  rw [mem_block0]
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, hq⟩ (1 : Fin 2) * 128 ≤ (i 1).val
      ∧ (i 1).val < win0_2.index ⟨(i 0).val / 5000, hq⟩ (1 : Fin 2) * 128 + 128
    rw [e1]; omega

end Cert.KernelIdeal.RegionValue

end
-- ==== Proof.KRegion1.lean ====
/-
  A bias-and-maximum launch as one whole-array equation.

  The launch walks a [100000, 128] array in 20 blocks of 5000 rows. At each block it loads the block and the whole
  bias row [1, 128], adds the row to every one of the block's rows, takes the larger of that and 0 entry by entry,
  and stores the block of the output array. Entry (p, q) of block t is entry (5000 t + p, q) of the array, the 20
  blocks fill the 100000 rows, and what each block receives is the same entry-by-entry function of the array and the
  row; so after the last block the output array is that function of the whole input array and the row, whatever the
  two arrays held when the launch began.
-/
import proofs.«145999_j15487652069425_1_alg».proof.Proof.Gen.KernelIdeal.Frame
import proofs.«145999_j15487652069425_1_alg».proof.Proof.Gen.ReferenceIdeal
import proofs.«145999_j15487652069425_1_alg».proof.Proof.Chains
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

namespace Region1

/-- The zero offsets of a whole-tile access, as the constant function. -/
theorem hz : (![0, 0] : Fin 2 → Nat) = fun _ => 0 := funext fun a => by fin_cases a <;> rfl

/-! ## The tile's arithmetic at one entry -/

/-- The tile computation at entry (p, q): the larger of (tile entry + the bias row's entry q) and 0. Both layout
    casts are identities, and the row is repeated down the tile's 5000 rows. -/
theorem pay_apply (x0 : Vec Ideal S5000x128 .f32) (x1 : Vec Ideal S1x128 .f32) (p : Fin 5000) (q : Fin 128) :
    k1_pay1 (F := Ideal) x0 x1 (ix2 p q) = max (x0 (ix2 p q) + x1 (ix2 0 q)) (Ideal.ofBits .f32 0x00000000#32) := by
  unfold k1_pay1
  rw [maximumf_apply, addf_apply, shapeCast_self, shapeCast_self, broadcast_apply,
    broadcastTo_apply x1 broadcasts_S1x128_S5000x128 (ix2 p q) (ix2 0 q) (fun a => by
      match a with
      | ⟨0, _⟩ => rfl
      | ⟨1, _⟩ => rfl)]
  rfl

/-- The whole-array function at entry (r, q): the larger of (a (r, q) + row (0, q)) and 0. The row is repeated down
    the 100000 rows, the zero everywhere. -/
theorem host_apply (a : S100000x128.Idx → Elt Ideal .f32) (row : S1x128.Idx → Elt Ideal .f32) (r : Fin 100000) (q : Fin 128) :
    Cert.Chains.biasReluRow (F := Ideal) a row (ix2 r q) = max (a (ix2 r q) + row (ix2 0 q)) (Ideal.ofBits .f32 0x00000000#32) := by
  unfold Cert.Chains.biasReluRow
  rw [maximumf_apply, addf_apply,
    broadcastInDim_apply ![0, 1] _ row (ix2 r q) (ix2 0 q) (fun a => by
      match a with
      | ⟨0, _⟩ => rfl
      | ⟨1, _⟩ => rfl),
    broadcastInDim_apply ![] _ (constant (F := Ideal) Cert.ReferenceIdeal.S_ .f32 0x00000000#32) (ix2 r q) ix0 (fun a => a.elim0)]
  rfl

/-- One store of the whole tile leaves the tile computation of the two tiles loaded whole. -/
theorem out_eq (x0 : Vec Ideal S5000x128 .f32) (x1 : Vec Ideal S1x128 .f32) : out1_2 (F := Ideal) x0 x1 = k1_pay1 x0 x1 := by
  unfold out1_2
  rw [View.canon_unit_zero hz, View.ld_unit_zero (S := S5000x128) hz, View.ld_unit_zero (S := S1x128) hz]

/-! ## Where each window's block sits -/

/-- The block indices over the 20 grid points: the two [100000, 128] windows take row block t, column block 0; the
    bias row's window stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the input window's block at point t is entry (5000 t + p, q) of its array. -/
theorem read_in (X : S100000x128.Idx → Elt Ideal .f32) (t : Fin cfg1.N) (p : Fin 5000) (q : Fin 128) (r : Fin 100000)
    (hr : r.val = t.val * 5000 + p.val) :
    ((cfg1.win 0).blk t).view.read (Elt Ideal) X (ix2 p q) = X (ix2 r q) := by
  obtain ⟨e0, e1, -⟩ := idx_facts t
  show X (((cfg1.win 0).blk t).view.emb (ix2 p q)) = X (ix2 r q)
  refine congrArg X (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Entry (0, q) of the bias row's block at any point is entry (0, q) of the row. -/
theorem read_row (R : S1x128.Idx → Elt Ideal .f32) (t : Fin cfg1.N) (q : Fin 128) :
    ((cfg1.win 1).blk t).view.read (Elt Ideal) R (ix2 0 q) = R (ix2 0 q) := by
  obtain ⟨-, -, e0, e1, -⟩ := idx_facts t
  show R (((cfg1.win 1).blk t).view.emb (ix2 0 q)) = R (ix2 0 q)
  refine congrArg R (funext fun a => Fin.ext ?_)
  match a with
  | ⟨0, _⟩ => show win1_1.index t (0 : Fin 2) * 1 + 1 * 0 = 0; rw [e0]
  | ⟨1, _⟩ => show win1_1.index t (1 : Fin 2) * 128 + 1 * q.val = q.val; rw [e1]; omega

/-- Entry (p, q) of the output window's block at point t is entry (5000 t + p, q) of its array. -/
theorem read_out (G : S100000x128.Idx → Elt Ideal .f32) (t : Fin cfg1.N) (p : Fin 5000) (q : Fin 128) (r : Fin 100000)
    (hr : r.val = t.val * 5000 + p.val) :
    ((cfg1.win 2).blk t).view.read (Elt Ideal) G (ix2 p q) = G (ix2 r q) := by
  obtain ⟨-, -, -, -, e0, e1⟩ := idx_facts t
  show G (((cfg1.win 2).blk t).view.emb (ix2 p q)) = G (ix2 r q)
  refine congrArg G (funext fun a => Fin.ext ?_)
  match a with
  | ⟨0, _⟩ => show win1_2.index t (0 : Fin 2) * 5000 + 1 * p.val = r.val; rw [e0, hr]; omega
  | ⟨1, _⟩ => show win1_2.index t (1 : Fin 2) * 128 + 1 * q.val = q.val; rw [e1]; omega

/-- The whole tile is written back: the write-back's entry (p, q) is the staging tile's. -/
theorem cut_apply (X : Vec Ideal S5000x128 .f32) (t : Fin cfg1.N) (p : Fin 5000) (q : Fin 128) :
    (cfg1.win 2).cut (cfg1.grid.coords t) X (ix2 p q) = X (ix2 p q) := rfl

/-! ## What each point writes back, and the array after the last point -/

/-- What point t writes back, at entry (p, q): the tile computation of the two input blocks. -/
theorem flushed_apply (c : Dev nD) (t : Fin cfg1.N) (p : Fin 5000) (q : Fin 128) :
    (dat1 (F := Ideal) V c).flushed 2 t (ix2 p q) = k1_pay1 (iblk1 V c 0 t) (iblk1 V c 1 t) (ix2 p q) := by
  refine (cut_apply _ t p q).trans ?_
  rw [after1_2, out_eq]

/-- What point t writes back is block t of the whole-array function of the two arrays the region is entered with. -/
theorem flushed_eq (c : Dev nD) (t : Fin cfg1.N) :
    (dat1 (F := Ideal) V c).flushed 2 t
      = ((cfg1.win 2).blk t).view.read (Elt Ideal) (Cert.Chains.biasReluRow (F := Ideal) (V c main_v43) (V c main_v44)) := by
  funext j
  obtain ⟨p, q, rfl⟩ : ∃ (p : Fin 5000) (q : Fin 128), j = ix2 p q := ⟨j 0, j 1, eq_ix2 j⟩
  have ht : t.val < 20 := lt_of_lt_of_eq t.isLt N_1
  have hp : p.val < 5000 := p.isLt
  have hr : t.val * 5000 + p.val < 100000 := by omega
  rw [flushed_apply, pay_apply, read_out _ t p q ⟨t.val * 5000 + p.val, hr⟩ rfl, host_apply]
  unfold iblk1
  rw [read_in _ t p q ⟨t.val * 5000 + p.val, hr⟩ rfl, read_row]

/-- An entry of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Row r of the array is in the block of point r / 5000: the 20 blocks of 5000 rows fill the 100000 rows. -/
theorem cover (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega) N_1.symm⟩, rfl⟩
  obtain ⟨-, -, -, -, e0, e1⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    rw [e0, ht]; omega
  | ⟨1, _⟩ =>
    show win1_2.index t (1 : Fin 2) * 128 ≤ (i 1).val ∧ (i 1).val < win1_2.index t (1 : Fin 2) * 128 + 128
    rw [e1]; omega

end Region1

/-- After the region, the output array holds the bias-and-maximum function of the input array and the bias row, as
    the region found them. -/
theorem region1 (c : Dev nD) :
    (dat1 (F := Ideal) V c).arrAt 2 cfg1.N = Cert.Chains.biasReluRow (F := Ideal) (V c main_v43) (V c main_v44) :=
  (dat1 (F := Ideal) V c).arrAt_eq_of_cover 2 _ (fun t _ => Region1.flushed_eq V c t) Region1.cover

end Cert.KernelIdeal.RegionValue

end
-- ==== Proof.KRegion2.lean ====
/-
  The second layer's dense step, as the idealized kernel computes it.

  The kernel walks the 100000 node rows in 20 tiles of 5000 rows. At tile t it multiplies rows 5000 t … 5000 t + 4999
  of the first layer's output [100000, 128] by the whole weight table [128, 128] and writes the product to rows
  5000 t … 5000 t + 4999 of the output [100000, 128]. At the extended reals a reshape to the same shape and a change
  of float format are the identity and a product into the zero accumulator is the finite sum over the 128 contracted
  coordinates, so entry (p, q) of tile t's product is entry (5000 t + p, q) of the whole product; the 20 tiles cover
  every row, so the output array is the whole product.
-/
import proofs.«145999_j15487652069425_1_alg».proof.Proof.Gen.KernelIdeal.Frame
import proofs.«145999_j15487652069425_1_alg».proof.Proof.Gen.ReferenceIdeal
import proofs.«145999_j15487652069425_1_alg».proof.Proof.Chains
import proofs.«145999_j15487652069425_1_alg».proof.Proof.LibTileMatmul
import Idealize.ShloMosaic.Lib.Pipeline.Value
import Idealize.ShloMosaic.Lib.ValueIdx

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- A whole-tile access starts at row 0, column 0. -/
theorem zero_offsets2 : (![0, 0] : Fin 2 → Nat) = fun _ => 0 := funext fun a => by fin_cases a <;> rfl

/-- The block indices over the 20 grid points: the input rows and the output rows move with the point, 5000 rows a
    point, and stay in column block 0; the weights are one block. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The tile's product at (p, q), for a tile whose row p is row i of the node table X and whose weights agree with W
    down column q: entry (i, q) of the whole product X · W. A reshape to the same shape and a change of float format
    are the identity at the extended reals, and the product into the zero accumulator is the finite sum over the 128
    contracted coordinates, the same sum the whole product has at (i, q). -/
theorem product_of_tile2 (x0 : Vec Ideal S5000x128 .f32) (x1 : Vec Ideal S128x128 .f32)
    (X : Vec Ideal S100000x128 .f32) (W : Vec Ideal S128x128 .f32)
    (p : Fin 5000) (q : Fin 128) (i : Fin 100000)
    (hrow : ∀ k : Fin 128, x0 (ix2 p k) = X (ix2 i k)) (hW : ∀ k : Fin 128, x1 (ix2 k q) = W (ix2 k q)) :
    k2_pay1 (F := Ideal) x0 x1 (ix2 p q) = Cert.Chains.dense2 (F := Ideal) X W (ix2 i q) := by
  unfold k2_pay1 Cert.Chains.dense2
  exact TileMatmul.matmul_tile_eq_dotGeneral _ _ none none _ _ X W p q i
    (fun k => (congrFun (shapeCast_self x0 _) (ix2 p k)).trans (hrow k)) hW

/-- Row p of the input block at point t is row 5000 t + p of the node table. -/
theorem node_block2 (c : Dev nD) (t : Fin cfg2.N) (p : Fin 5000) (k : Fin 128) (i : Fin 100000)
    (hi : i.val = t.val * 5000 + p.val) :
    iblk2 V c 0 t (ix2 p k) = V c main_v45 (ix2 i k) := by
  obtain ⟨e0, e1, -, -, -, -⟩ := block_index2 t
  unfold iblk2
  rw [View.read_apply]
  show V c main_v45 _ = V c main_v45 _
  congr 1
  funext a
  apply Fin.ext
  match a with
  | ⟨0, _⟩ => show win2_0.index t (0 : Fin 2) * 5000 + 1 * p.val = i.val; omega
  | ⟨1, _⟩ => show win2_0.index t (1 : Fin 2) * 128 + 1 * k.val = k.val; omega

/-- The weight block at every point is the whole weight table. -/
theorem weight_block2 (c : Dev nD) (t : Fin cfg2.N) (k : Fin 128) (q : Fin 128) :
    iblk2 V c 1 t (ix2 k q) = V c main_arg5 (ix2 k q) := by
  obtain ⟨-, -, e2, e3, -, -⟩ := block_index2 t
  unfold iblk2
  rw [View.read_apply]
  show V c main_arg5 _ = V c main_arg5 _
  congr 1
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- A tile P of 5000 rows whose row p is row 5000 t + p of an array G is what the output window's block at point t
    reads off G. -/
theorem tile_is_block2 (P : Vec Ideal S5000x128 .f32) (G : Vec Ideal S100000x128 .f32) (t : Fin cfg2.N)
    (h : ∀ (p : Fin 5000) (q : Fin 128) (i : Fin 100000), i.val = t.val * 5000 + p.val → P (ix2 p q) = G (ix2 i q)) :
    (cfg2.win 2).cut (grid2.coords t) P = ((cfg2.win 2).blk t).view.read (Elt Ideal) G := by
  obtain ⟨-, -, -, -, e0, e1⟩ := block_index2 t
  have ht : t.val < 20 := lt_of_lt_of_eq t.isLt N_2
  funext j
  rw [View.read_apply]
  have hj0 : (j 0).val < 5000 := (j 0).isLt
  have hj1 : (j 1).val < 128 := (j 1).isLt
  have hl : (cfg2.win 2).xinj (grid2.coords t) j = ix2 (⟨(j 0).val, hj0⟩ : Fin 5000) (⟨(j 1).val, hj1⟩ : Fin 128) :=
    funext fun a => Fin.ext (by match a with | ⟨0, _⟩ => rfl | ⟨1, _⟩ => rfl)
  have hr : ((cfg2.win 2).blk t).view.emb j
      = ix2 (⟨t.val * 5000 + (j 0).val, by omega⟩ : Fin 100000) (⟨(j 1).val, hj1⟩ : Fin 128) :=
    funext fun a => Fin.ext (by
      match a with
      | ⟨0, _⟩ => show win2_2.index t (0 : Fin 2) * 5000 + 1 * (j 0).val = t.val * 5000 + (j 0).val; omega
      | ⟨1, _⟩ => show win2_2.index t (1 : Fin 2) * 128 + 1 * (j 1).val = (j 1).val; omega)
  show P ((cfg2.win 2).xinj (grid2.coords t) j) = G (((cfg2.win 2).blk t).view.emb j)
  rw [hl, hr]
  exact h _ _ _ rfl

/-- What point t writes back is block t of the whole product of the node table with the weights. -/
theorem flushed2_eq (c : Dev nD) (t : Fin cfg2.N) :
    (dat2 (F := Ideal) V c).flushed 2 t
      = ((cfg2.win 2).blk t).view.read (Elt Ideal) (Cert.Chains.dense2 (F := Ideal) (V c main_v45) (V c main_arg5)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x128) zero_offsets2]
  refine tile_is_block2 (k2_pay1 (F := Ideal) (iblk2 V c 0 t) (iblk2 V c 1 t))
    (Cert.Chains.dense2 (F := Ideal) (V c main_v45) (V c main_arg5)) t fun p q i hi => ?_
  exact product_of_tile2 (iblk2 V c 0 t) (iblk2 V c 1 t) (V c main_v45) (V c main_arg5) p q i
    (fun k => node_block2 V c t p k i hi) (fun k => weight_block2 V c t k q)

/-- An index of the output array is in point t's block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- REGION 2: the 20 blocks of 5000 rows tile the output array (row r lies in the block of point r / 5000), so the
    array ends holding the whole product of the node table with the second layer's weights. -/
theorem region2 (c : Dev nD) :
    (dat2 (F := Ideal) V c).arrAt 2 cfg2.N = Cert.Chains.dense2 (F := Ideal) (V c main_v45) (V c main_arg5) := by
  refine (dat2 (F := Ideal) V c).arrAt_eq_of_cover 2 (Cert.Chains.dense2 (F := Ideal) (V c main_v45) (V c main_arg5))
    (fun t _ => flushed2_eq V c t) fun i => ?_
  have hi0 : (i 0).val < 100000 := (i 0).isLt
  have hi1 : (i 1).val < 128 := (i 1).isLt
  have hN : cfg2.N = 20 := N_2
  have hq : (i 0).val / 5000 < cfg2.N := by rw [hN]; omega
  obtain ⟨-, -, -, -, e0, e1⟩ := block_index2 ⟨(i 0).val / 5000, hq⟩
  refine ⟨⟨(i 0).val / 5000, hq⟩, flush2_2 _, ?_⟩
  rw [mem_block2]
  intro a
  match a with
  | ⟨0, _⟩ =>
    show win2_2.index ⟨(i 0).val / 5000, hq⟩ (0 : Fin 2) * 5000 ≤ (i 0).val
      ∧ (i 0).val < win2_2.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win2_2.index ⟨(i 0).val / 5000, hq⟩ (1 : Fin 2) * 128 ≤ (i 1).val
      ∧ (i 1).val < win2_2.index ⟨(i 0).val / 5000, hq⟩ (1 : Fin 2) * 128 + 128
    rw [e1]; omega

end Cert.KernelIdeal.RegionValue

end
-- ==== Proof.KRegion3.lean ====
/-
  A bias-and-maximum launch as one whole-array equation.

  The launch walks a [100000, 128] array in 20 blocks of 5000 rows. At each block it loads the block and the whole
  bias row [1, 128], adds the row to every one of the block's rows, takes the larger of that and 0 entry by entry,
  and stores the block of the output array. Entry (p, q) of block t is entry (5000 t + p, q) of the array, the 20
  blocks fill the 100000 rows, and what each block receives is the same entry-by-entry function of the array and the
  row; so after the last block the output array is that function of the whole input array and the row, whatever the
  two arrays held when the launch began.
-/
import proofs.«145999_j15487652069425_1_alg».proof.Proof.Gen.KernelIdeal.Frame
import proofs.«145999_j15487652069425_1_alg».proof.Proof.Gen.ReferenceIdeal
import proofs.«145999_j15487652069425_1_alg».proof.Proof.Chains
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

namespace Region3

/-- The zero offsets of a whole-tile access, as the constant function. -/
theorem hz : (![0, 0] : Fin 2 → Nat) = fun _ => 0 := funext fun a => by fin_cases a <;> rfl

/-! ## The tile's arithmetic at one entry -/

/-- The tile computation at entry (p, q): the larger of (tile entry + the bias row's entry q) and 0. Both layout
    casts are identities, and the row is repeated down the tile's 5000 rows. -/
theorem pay_apply (x0 : Vec Ideal S5000x128 .f32) (x1 : Vec Ideal S1x128 .f32) (p : Fin 5000) (q : Fin 128) :
    k3_pay1 (F := Ideal) x0 x1 (ix2 p q) = max (x0 (ix2 p q) + x1 (ix2 0 q)) (Ideal.ofBits .f32 0x00000000#32) := by
  unfold k3_pay1
  rw [maximumf_apply, addf_apply, shapeCast_self, shapeCast_self, broadcast_apply,
    broadcastTo_apply x1 broadcasts_S1x128_S5000x128 (ix2 p q) (ix2 0 q) (fun a => by
      match a with
      | ⟨0, _⟩ => rfl
      | ⟨1, _⟩ => rfl)]
  rfl

/-- The whole-array function at entry (r, q): the larger of (a (r, q) + row (0, q)) and 0. The row is repeated down
    the 100000 rows, the zero everywhere. -/
theorem host_apply (a : S100000x128.Idx → Elt Ideal .f32) (row : S1x128.Idx → Elt Ideal .f32) (r : Fin 100000) (q : Fin 128) :
    Cert.Chains.biasReluRow (F := Ideal) a row (ix2 r q) = max (a (ix2 r q) + row (ix2 0 q)) (Ideal.ofBits .f32 0x00000000#32) := by
  unfold Cert.Chains.biasReluRow
  rw [maximumf_apply, addf_apply,
    broadcastInDim_apply ![0, 1] _ row (ix2 r q) (ix2 0 q) (fun a => by
      match a with
      | ⟨0, _⟩ => rfl
      | ⟨1, _⟩ => rfl),
    broadcastInDim_apply ![] _ (constant (F := Ideal) Cert.ReferenceIdeal.S_ .f32 0x00000000#32) (ix2 r q) ix0 (fun a => a.elim0)]
  rfl

/-- One store of the whole tile leaves the tile computation of the two tiles loaded whole. -/
theorem out_eq (x0 : Vec Ideal S5000x128 .f32) (x1 : Vec Ideal S1x128 .f32) : out3_2 (F := Ideal) x0 x1 = k3_pay1 x0 x1 := by
  unfold out3_2
  rw [View.canon_unit_zero hz, View.ld_unit_zero (S := S5000x128) hz, View.ld_unit_zero (S := S1x128) hz]

/-! ## Where each window's block sits -/

/-- The block indices over the 20 grid points: the two [100000, 128] windows take row block t, column block 0; the
    bias row's window stays at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the input window's block at point t is entry (5000 t + p, q) of its array. -/
theorem read_in (X : S100000x128.Idx → Elt Ideal .f32) (t : Fin cfg3.N) (p : Fin 5000) (q : Fin 128) (r : Fin 100000)
    (hr : r.val = t.val * 5000 + p.val) :
    ((cfg3.win 0).blk t).view.read (Elt Ideal) X (ix2 p q) = X (ix2 r q) := by
  obtain ⟨e0, e1, -⟩ := idx_facts t
  show X (((cfg3.win 0).blk t).view.emb (ix2 p q)) = X (ix2 r q)
  refine congrArg X (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

/-- Entry (0, q) of the bias row's block at any point is entry (0, q) of the row. -/
theorem read_row (R : S1x128.Idx → Elt Ideal .f32) (t : Fin cfg3.N) (q : Fin 128) :
    ((cfg3.win 1).blk t).view.read (Elt Ideal) R (ix2 0 q) = R (ix2 0 q) := by
  obtain ⟨-, -, e0, e1, -⟩ := idx_facts t
  show R (((cfg3.win 1).blk t).view.emb (ix2 0 q)) = R (ix2 0 q)
  refine congrArg R (funext fun a => Fin.ext ?_)
  match a with
  | ⟨0, _⟩ => show win3_1.index t (0 : Fin 2) * 1 + 1 * 0 = 0; rw [e0]
  | ⟨1, _⟩ => show win3_1.index t (1 : Fin 2) * 128 + 1 * q.val = q.val; rw [e1]; omega

/-- Entry (p, q) of the output window's block at point t is entry (5000 t + p, q) of its array. -/
theorem read_out (G : S100000x128.Idx → Elt Ideal .f32) (t : Fin cfg3.N) (p : Fin 5000) (q : Fin 128) (r : Fin 100000)
    (hr : r.val = t.val * 5000 + p.val) :
    ((cfg3.win 2).blk t).view.read (Elt Ideal) G (ix2 p q) = G (ix2 r q) := by
  obtain ⟨-, -, -, -, e0, e1⟩ := idx_facts t
  show G (((cfg3.win 2).blk t).view.emb (ix2 p q)) = G (ix2 r q)
  refine congrArg G (funext fun a => Fin.ext ?_)
  match a with
  | ⟨0, _⟩ => show win3_2.index t (0 : Fin 2) * 5000 + 1 * p.val = r.val; rw [e0, hr]; omega
  | ⟨1, _⟩ => show win3_2.index t (1 : Fin 2) * 128 + 1 * q.val = q.val; rw [e1]; omega

/-- The whole tile is written back: the write-back's entry (p, q) is the staging tile's. -/
theorem cut_apply (X : Vec Ideal S5000x128 .f32) (t : Fin cfg3.N) (p : Fin 5000) (q : Fin 128) :
    (cfg3.win 2).cut (cfg3.grid.coords t) X (ix2 p q) = X (ix2 p q) := rfl

/-! ## What each point writes back, and the array after the last point -/

/-- What point t writes back, at entry (p, q): the tile computation of the two input blocks. -/
theorem flushed_apply (c : Dev nD) (t : Fin cfg3.N) (p : Fin 5000) (q : Fin 128) :
    (dat3 (F := Ideal) V c).flushed 2 t (ix2 p q) = k3_pay1 (iblk3 V c 0 t) (iblk3 V c 1 t) (ix2 p q) := by
  refine (cut_apply _ t p q).trans ?_
  rw [after3_2, out_eq]

/-- What point t writes back is block t of the whole-array function of the two arrays the region is entered with. -/
theorem flushed_eq (c : Dev nD) (t : Fin cfg3.N) :
    (dat3 (F := Ideal) V c).flushed 2 t
      = ((cfg3.win 2).blk t).view.read (Elt Ideal) (Cert.Chains.biasReluRow (F := Ideal) (V c main_v59) (V c main_v60)) := by
  funext j
  obtain ⟨p, q, rfl⟩ : ∃ (p : Fin 5000) (q : Fin 128), j = ix2 p q := ⟨j 0, j 1, eq_ix2 j⟩
  have ht : t.val < 20 := lt_of_lt_of_eq t.isLt N_3
  have hp : p.val < 5000 := p.isLt
  have hr : t.val * 5000 + p.val < 100000 := by omega
  rw [flushed_apply, pay_apply, read_out _ t p q ⟨t.val * 5000 + p.val, hr⟩ rfl, host_apply]
  unfold iblk3
  rw [read_in _ t p q ⟨t.val * 5000 + p.val, hr⟩ rfl, read_row]

/-- An entry of the array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- Row r of the array is in the block of point r / 5000: the 20 blocks of 5000 rows fill the 100000 rows. -/
theorem cover (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  obtain ⟨t, ht⟩ : ∃ t : Fin cfg3.N, t.val = (i 0).val / 5000 :=
    ⟨⟨(i 0).val / 5000, lt_of_lt_of_eq (by omega) N_3.symm⟩, rfl⟩
  obtain ⟨-, -, -, -, e0, e1⟩ := idx_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    rw [e0, ht]; omega
  | ⟨1, _⟩ =>
    show win3_2.index t (1 : Fin 2) * 128 ≤ (i 1).val ∧ (i 1).val < win3_2.index t (1 : Fin 2) * 128 + 128
    rw [e1]; omega

end Region3

/-- After the region, the output array holds the bias-and-maximum function of the input array and the bias row, as
    the region found them. -/
theorem region3 (c : Dev nD) :
    (dat3 (F := Ideal) V c).arrAt 2 cfg3.N = Cert.Chains.biasReluRow (F := Ideal) (V c main_v59) (V c main_v60) :=
  (dat3 (F := Ideal) V c).arrAt_eq_of_cover 2 _ (fun t _ => Region3.flushed_eq V c t) Region3.cover

end Cert.KernelIdeal.RegionValue

end
-- ==== Proof.KRegion4.lean ====
/-
  The third layer's dense step, as the idealized kernel computes it.

  The kernel walks the 100000 node rows in 20 tiles of 5000 rows. At tile t it multiplies rows 5000 t … 5000 t + 4999
  of the second layer's output [100000, 128] by the whole weight table [128, 128] and writes the product to rows
  5000 t … 5000 t + 4999 of the output [100000, 128]. At the extended reals a reshape to the same shape and a change
  of float format are the identity and a product into the zero accumulator is the finite sum over the 128 contracted
  coordinates, so entry (p, q) of tile t's product is entry (5000 t + p, q) of the whole product; the 20 tiles cover
  every row, so the output array is the whole product.
-/
import proofs.«145999_j15487652069425_1_alg».proof.Proof.Gen.KernelIdeal.Frame
import proofs.«145999_j15487652069425_1_alg».proof.Proof.Gen.ReferenceIdeal
import proofs.«145999_j15487652069425_1_alg».proof.Proof.Chains
import proofs.«145999_j15487652069425_1_alg».proof.Proof.LibTileMatmul
import Idealize.ShloMosaic.Lib.Pipeline.Value
import Idealize.ShloMosaic.Lib.ValueIdx

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- A whole-tile access starts at row 0, column 0. -/
theorem zero_offsets4 : (![0, 0] : Fin 2 → Nat) = fun _ => 0 := funext fun a => by fin_cases a <;> rfl

/-- The block indices over the 20 grid points: the input rows and the output rows move with the point, 5000 rows a
    point, and stay in column block 0; the weights are one block. -/
theorem block_index4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The tile's product at (p, q), for a tile whose row p is row i of the node table X and whose weights agree with W
    down column q: entry (i, q) of the whole product X · W. A reshape to the same shape and a change of float format
    are the identity at the extended reals, and the product into the zero accumulator is the finite sum over the 128
    contracted coordinates, the same sum the whole product has at (i, q). -/
theorem product_of_tile4 (x0 : Vec Ideal S5000x128 .f32) (x1 : Vec Ideal S128x128 .f32)
    (X : Vec Ideal S100000x128 .f32) (W : Vec Ideal S128x128 .f32)
    (p : Fin 5000) (q : Fin 128) (i : Fin 100000)
    (hrow : ∀ k : Fin 128, x0 (ix2 p k) = X (ix2 i k)) (hW : ∀ k : Fin 128, x1 (ix2 k q) = W (ix2 k q)) :
    k4_pay1 (F := Ideal) x0 x1 (ix2 p q) = Cert.Chains.dense2 (F := Ideal) X W (ix2 i q) := by
  unfold k4_pay1 Cert.Chains.dense2
  exact TileMatmul.matmul_tile_eq_dotGeneral _ _ none none _ _ X W p q i
    (fun k => (congrFun (shapeCast_self x0 _) (ix2 p k)).trans (hrow k)) hW

/-- Row p of the input block at point t is row 5000 t + p of the node table. -/
theorem node_block4 (c : Dev nD) (t : Fin cfg4.N) (p : Fin 5000) (k : Fin 128) (i : Fin 100000)
    (hi : i.val = t.val * 5000 + p.val) :
    iblk4 V c 0 t (ix2 p k) = V c main_v61 (ix2 i k) := by
  obtain ⟨e0, e1, -, -, -, -⟩ := block_index4 t
  unfold iblk4
  rw [View.read_apply]
  show V c main_v61 _ = V c main_v61 _
  congr 1
  funext a
  apply Fin.ext
  match a with
  | ⟨0, _⟩ => show win4_0.index t (0 : Fin 2) * 5000 + 1 * p.val = i.val; omega
  | ⟨1, _⟩ => show win4_0.index t (1 : Fin 2) * 128 + 1 * k.val = k.val; omega

/-- The weight block at every point is the whole weight table. -/
theorem weight_block4 (c : Dev nD) (t : Fin cfg4.N) (k : Fin 128) (q : Fin 128) :
    iblk4 V c 1 t (ix2 k q) = V c main_arg7 (ix2 k q) := by
  obtain ⟨-, -, e2, e3, -, -⟩ := block_index4 t
  unfold iblk4
  rw [View.read_apply]
  show V c main_arg7 _ = V c main_arg7 _
  congr 1
  funext a
  apply Fin.ext
  match a with
  | ⟨0, _⟩ => show win4_1.index t (0 : Fin 2) * 128 + 1 * k.val = k.val; omega
  | ⟨1, _⟩ => show win4_1.index t (1 : Fin 2) * 128 + 1 * q.val = q.val; omega

/-- A tile P of 5000 rows whose row p is row 5000 t + p of an array G is what the output window's block at point t
    reads off G. -/
theorem tile_is_block4 (P : Vec Ideal S5000x128 .f32) (G : Vec Ideal S100000x128 .f32) (t : Fin cfg4.N)
    (h : ∀ (p : Fin 5000) (q : Fin 128) (i : Fin 100000), i.val = t.val * 5000 + p.val → P (ix2 p q) = G (ix2 i q)) :
    (cfg4.win 2).cut (grid4.coords t) P = ((cfg4.win 2).blk t).view.read (Elt Ideal) G := by
  obtain ⟨-, -, -, -, e0, e1⟩ := block_index4 t
  have ht : t.val < 20 := lt_of_lt_of_eq t.isLt N_4
  funext j
  rw [View.read_apply]
  have hj0 : (j 0).val < 5000 := (j 0).isLt
  have hj1 : (j 1).val < 128 := (j 1).isLt
  have hl : (cfg4.win 2).xinj (grid4.coords t) j = ix2 (⟨(j 0).val, hj0⟩ : Fin 5000) (⟨(j 1).val, hj1⟩ : Fin 128) :=
    funext fun a => Fin.ext (by match a with | ⟨0, _⟩ => rfl | ⟨1, _⟩ => rfl)
  have hr : ((cfg4.win 2).blk t).view.emb j
      = ix2 (⟨t.val * 5000 + (j 0).val, by omega⟩ : Fin 100000) (⟨(j 1).val, hj1⟩ : Fin 128) :=
    funext fun a => Fin.ext (by
      match a with
      | ⟨0, _⟩ => show win4_2.index t (0 : Fin 2) * 5000 + 1 * (j 0).val = t.val * 5000 + (j 0).val; omega
      | ⟨1, _⟩ => show win4_2.index t (1 : Fin 2) * 128 + 1 * (j 1).val = (j 1).val; omega)
  show P ((cfg4.win 2).xinj (grid4.coords t) j) = G (((cfg4.win 2).blk t).view.emb j)
  rw [hl, hr]
  exact h _ _ _ rfl

/-- What point t writes back is block t of the whole product of the node table with the weights. -/
theorem flushed4_eq (c : Dev nD) (t : Fin cfg4.N) :
    (dat4 (F := Ideal) V c).flushed 2 t
      = ((cfg4.win 2).blk t).view.read (Elt Ideal) (Cert.Chains.dense2 (F := Ideal) (V c main_v61) (V c main_arg7)) := by
  show (cfg4.win 2).cut (grid4.coords t) ((dat4 V c).after 2 t) = _
  rw [after4_2]
  unfold out4_2
  rw [View.canon_unit_zero zero_offsets4]
  simp only [View.ld_unit_zero (S := S5000x128) zero_offsets4, View.ld_unit_zero (S := S128x128) zero_offsets4]
  refine tile_is_block4 (k4_pay1 (F := Ideal) (iblk4 V c 0 t) (iblk4 V c 1 t))
    (Cert.Chains.dense2 (F := Ideal) (V c main_v61) (V c main_arg7)) t fun p q i hi => ?_
  exact product_of_tile4 (iblk4 V c 0 t) (iblk4 V c 1 t) (V c main_v61) (V c main_arg7) p q i
    (fun k => node_block4 V c t p k i hi) (fun k => weight_block4 V c t k q)

/-- An index of the output array is in point t's block iff each coordinate is in the block's range on its axis. -/
theorem mem_block4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- REGION 4: the 20 blocks of 5000 rows tile the output array (row r lies in the block of point r / 5000), so the
    array ends holding the whole product of the node table with the third layer's weights. -/
theorem region4 (c : Dev nD) :
    (dat4 (F := Ideal) V c).arrAt 2 cfg4.N = Cert.Chains.dense2 (F := Ideal) (V c main_v61) (V c main_arg7) := by
  refine (dat4 (F := Ideal) V c).arrAt_eq_of_cover 2 (Cert.Chains.dense2 (F := Ideal) (V c main_v61) (V c main_arg7))
    (fun t _ => flushed4_eq V c t) fun i => ?_
  have hi0 : (i 0).val < 100000 := (i 0).isLt
  have hi1 : (i 1).val < 128 := (i 1).isLt
  have hN : cfg4.N = 20 := N_4
  have hq : (i 0).val / 5000 < cfg4.N := by rw [hN]; omega
  obtain ⟨-, -, -, -, e0, e1⟩ := block_index4 ⟨(i 0).val / 5000, hq⟩
  refine ⟨⟨(i 0).val / 5000, hq⟩, flush4_2 _, ?_⟩
  rw [mem_block4]
  intro a
  match a with
  | ⟨0, _⟩ =>
    show win4_2.index ⟨(i 0).val / 5000, hq⟩ (0 : Fin 2) * 5000 ≤ (i 0).val
      ∧ (i 0).val < win4_2.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win4_2.index ⟨(i 0).val / 5000, hq⟩ (1 : Fin 2) * 128 ≤ (i 1).val
      ∧ (i 1).val < win4_2.index ⟨(i 0).val / 5000, hq⟩ (1 : Fin 2) * 128 + 128
    rw [e1]; omega

end Cert.KernelIdeal.RegionValue

end
-- ==== Proof.KRegion5.lean ====
/-
  A bias-and-maximum launch as one whole-array equation.

  The launch walks a [100000, 128] array in 20 blocks of 5000 rows. At each block it loads the block and the whole
  bias row [1, 128], adds the row to every one of the block's rows, takes the larger of that and 0 entry by entry,
  and stores the block of the output array. Entry (p, q) of block t is entry (5000 t + p, q) of the array, the 20
  blocks fill the 100000 rows, and what each block receives is the same entry-by-entry function of the array and the
  row; so after the last block the output array is that function of the whole input array and the row, whatever the
  two arrays held when the launch began.
-/
import proofs.«145999_j15487652069425_1_alg».proof.Proof.Gen.KernelIdeal.Frame
import proofs.«145999_j15487652069425_1_alg».proof.Proof.Gen.ReferenceIdeal
import proofs.«145999_j15487652069425_1_alg».proof.Proof.Chains
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

namespace Region5

/-- The zero offsets of a whole-tile access, as the constant function. -/
theorem hz : (![0, 0] : Fin 2 → Nat) = fun _ => 0 := funext fun a => by fin_cases a <;> rfl

/-! ## The tile's arithmetic at one entry -/

/-- The tile computation at entry (p, q): the larger of (tile entry + the bias row's entry q) and 0. Both layout
    casts are identities, and the row is repeated down the tile's 5000 rows. -/
theorem pay_apply (x0 : Vec Ideal S5000x128 .f32) (x1 : Vec Ideal S1x128 .f32) (p : Fin 5000) (q : Fin 128) :
    k5_pay1 (F := Ideal) x0 x1 (ix2 p q) = max (x0 (ix2 p q) + x1 (ix2 0 q)) (Ideal.ofBits .f32 0x00000000#32) := by
  unfold k5_pay1
  rw [maximumf_apply, addf_apply, shapeCast_self, shapeCast_self, broadcast_apply,
    broadcastTo_apply x1 broadcasts_S1x128_S5000x128 (ix2 p q) (ix2 0 q) (fun a => by
      match a with
      | ⟨0, _⟩ => rfl
      | ⟨1, _⟩ => rfl)]
  rfl

/-- The whole-array function at entry (r, q): the larger of (a (r, q) + row (0, q)) and 0. The row is repeated down
    the 100000 rows, the zero everywhere. -/
theorem host_apply (a : S100000x128.Idx → Elt Ideal .f32) (row : S1x128.Idx → Elt Ideal .f32) (r : Fin 100000) (q : Fin 128) :
    Cert.Chains.biasReluRow (F := Ideal) a row (ix2 r q) = max (a (ix2 r q) + row (ix2 0 q)) (Ideal.ofBits .f32 0x00000000#32) := by
  unfold Cert.Chains.biasReluRow
  rw [maximumf_apply, addf_apply,
    broadcastInDim_apply ![0, 1] _ row (ix2 r q) (ix2 0 q) (fun a => by
      match a with
      | ⟨0, _⟩ => rfl
      | ⟨1, _⟩ => rfl),
    broadcastInDim_apply ![] _ (constant (F := Ideal) Cert.ReferenceIdeal.S_ .f32 0x00000000#32) (ix2 r q) ix0 (fun a => a.elim0)]
  rfl

/-- One store of the whole tile leaves the tile computation of the two tiles loaded whole. -/
theorem out_eq (x0 : Vec Ideal S5000x128 .f32) (x1 : Vec Ideal S1x128 .f32) : out5_2 (F := Ideal) x0 x1 = k5_pay1 x0 x1 := by
  unfold out5_2
  rw [View.canon_unit_zero hz, View.ld_unit_zero (S := S5000x128) hz, View.ld_unit_zero (S := S1x128) hz]

/-! ## Where each window's block sits -/

/-- The block indices over the 20 grid points: the two [100000, 128] windows take row block t, column block 0; the
    bias row's window stays at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of the input window's block at point t is entry (5000 t + p, q) of its array. -/
theorem read_in (X : S100000x128.Idx → Elt Ideal .f32) (t : Fin cfg5.N) (p : Fin 5000) (q : Fin 128) (r : Fin 100000)
    (hr : r.val = t.val * 5000 + p.val) :
    ((cfg5.win 0).blk t).view.read (Elt Ideal) X (ix2 p q) = X (ix2 r q) := by
  obtain ⟨e0, e1, -⟩ := idx_facts t
  show X (((cfg5.win 0).blk t).view.emb (ix2 p q)) = X (ix2 r q)
  refine congrArg X (funext fun a => Fin.ext ?_)
  match a with
  | ⟨0, _⟩ => show win5_0.index t (0 : Fin 2) * 5000 + 1 * p.val = r.val; rw [e0, hr]; omega
  | ⟨1, _⟩ => show win5_0.index t (1 : Fin 2) * 128 + 1 * q.val = q.val; rw [e1]; omega

/-- Entry (0, q) of the bias row's block at any point is entry (0, q) of the row. -/
theorem read_row (R : S1x128.Idx → Elt Ideal .f32) (t : Fin cfg5.N) (q : Fin 128) :
    ((cfg5.win 1).blk t).view.read (Elt Ideal) R (ix2 0 q) = R (ix2 0 q) := by
  obtain ⟨-, -, e0, e1, -⟩ := idx_facts t
  show R (((cfg5.win 1).blk t).view.emb (ix2 0 q)) = R (ix2 0 q)
  refine congrArg R (funext fun a => Fin.ext ?_)
  match a with
  | ⟨0, _⟩ => show win5_1.index t (0 : Fin 2) * 1 + 1 * 0 = 0; rw [e0]
  | ⟨1, _⟩ => show win5_1.index t (1 : Fin 2) * 128 + 1 * q.val = q.val; rw [e1]; omega

/-- Entry (p, q) of the output window's block at point t is entry (5000 t + p, q) of its array. -/
theorem read_out (G : S100000x128.Idx → Elt Ideal .f32) (t : Fin cfg5.N) (p : Fin 5000) (q : Fin 128) (r : Fin 100000)
    (hr : r.val = t.val * 5000 + p.val) :
    ((cfg5.win 2).blk t).view.read (Elt Ideal) G (ix2 p q) = G (ix2 r q) := by
  obtain ⟨-, -, -, -, e0, e1⟩ := idx_facts t
  show G (((cfg5.win 2).blk t).view.emb (ix2 p q)) = G (ix2 r q)
  refine congrArg G (funext fun a => Fin.ext ?_)
  match a with
  | ⟨0, _⟩ => show win5_2.index t (0 : Fin 2) * 5000 + 1 * p.val = r.val; rw [e0, hr]; omega
  | ⟨1, _⟩ => show win5_2.index t (1 : Fin 2) * 128 + 1 * q.val = q.val; rw [e1]; omega

/-- The whole tile is written back: the write-back's entry (p, q) is the staging tile's. -/
theorem cut_apply (X : Vec Ideal S5000x128 .f32) (t : Fin cfg5.N) (p : Fin 5000) (q : Fin 128) :
    (cfg5.win 2).cut (cfg5.grid.coords t) X (ix2 p q) = X (ix2 p q) := rfl

/-! ## What each point writes back, and the array after the last point -/

/-- What point t writes back, at entry (p, q): the tile computation of the two input blocks. -/
theorem flushed_apply (c : Dev nD) (t : Fin cfg5.N) (p : Fin 5000) (q : Fin 128) :
    (dat5 (F := Ideal) V c).flushed 2 t (ix2 p q) = k5_pay1 (iblk5 V c 0 t) (iblk5 V c 1 t) (ix2 p q) := by
  refine (cut_apply _ t p q).trans ?_
  rw [after5_2, out_eq]

/-- What point t writes back is block t of the whole-array function of the two arrays the region is entered with. -/
theorem flushed_eq (c : Dev nD) (t : Fin cfg5.N) :
    (dat5 (F := Ideal) V c).flushed 2 t
      = ((cfg5.win 2).blk t).view.read (Elt Ideal) (Cert.Chains.biasReluRow (F := Ideal) (V c main_v75) (V c main_v76)) := by
  funext j
  obtain ⟨p, q, rfl⟩ : ∃ (p : Fin 5000) (q : Fin 128), j = ix2 p q := ⟨j 0, j 1, eq_ix2 j⟩
  have ht : t.val < 20 := lt_of_lt_of_eq t.isLt N_5
  have hp : p.val < 5000 := p.isLt
  have hr : t.val * 5000 + p.val < 100000 := by omega
  rw [flushed_apply, pay_apply, read_out _ t p q ⟨t.val * 5000 + p.val, hr⟩ rfl, host_apply]
  unfold iblk5
  rw [read_in _ t p q ⟨t.val * 5000 + p.val, hr⟩ rfl, read_row]

/-- An entry of the array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- Row r of the array is in the block of point r / 5000: the 20 blocks of 5000 rows fill the 100000 rows. -/
theorem cover (i : S100000x128.Idx) :
    ∃ t : Fin cfg5.N, (cfg5.win 2).flush t = true ∧ i ∈ ((cfg5.win 2).blk t).view.set := by
  have hi0 : (i 0).val < 100000 := idx2_lt0 i
  have hi1 : (i 1).val < 128 := idx2_lt1 i
  obtain ⟨t, ht⟩ : ∃ t : Fin cfg5.N, t.val = (i 0).val / 5000 :=
    ⟨⟨(i 0).val / 5000, lt_of_lt_of_eq (by omega) N_5.symm⟩, rfl⟩
  obtain ⟨-, -, -, -, e0, e1⟩ := idx_facts t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    rw [e0, ht]; omega
  | ⟨1, _⟩ =>
    show win5_2.index t (1 : Fin 2) * 128 ≤ (i 1).val ∧ (i 1).val < win5_2.index t (1 : Fin 2) * 128 + 128
    rw [e1]; omega

end Region5

/-- After the region, the output array holds the bias-and-maximum function of the input array and the bias row, as
    the region found them. -/
theorem region5 (c : Dev nD) :
    (dat5 (F := Ideal) V c).arrAt 2 cfg5.N = Cert.Chains.biasReluRow (F := Ideal) (V c main_v75) (V c main_v76) :=
  (dat5 (F := Ideal) V c).arrAt_eq_of_cover 2 _ (fun t _ => Region5.flushed_eq V c t) Region5.cover

end Cert.KernelIdeal.RegionValue

end
-- ==== Proof.KRegion6.lean ====
/-
  The last affine map, as the idealized kernel computes it.

  The kernel has one grid point: it stages the whole pooled table [512, 128], the whole weight table [128, 64] and the
  bias as a one-row table [1, 64], multiplies the first two, adds the bias row to every row of the product, and writes
  the whole output [512, 64]. At the extended reals a reshape to the same shape and a change of float format are the
  identity and a product into the zero accumulator is the finite sum over the 128 contracted coordinates, so the
  product's entry (a, b) is the whole product's; the row spread over the 512 rows reads entry (0, b) of the one-row
  table either way it is written. The one block is the whole output array.
-/
import proofs.«145999_j15487652069425_1_alg».proof.Proof.Gen.KernelIdeal.Frame
import proofs.«145999_j15487652069425_1_alg».proof.Proof.Gen.ReferenceIdeal
import proofs.«145999_j15487652069425_1_alg».proof.Proof.Chains
import proofs.«145999_j15487652069425_1_alg».proof.Proof.LibTileMatmul
import Idealize.ShloMosaic.Lib.Pipeline.Value
import Idealize.ShloMosaic.Lib.ValueIdx

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- A whole-tile access starts at row 0, column 0. -/
theorem zero_offsets6 : (![0, 0] : Fin 2 → Nat) = fun _ => 0 := funext fun a => by fin_cases a <;> rfl

/-- The grid has one point, and every window's block there is its whole array: all block indices are 0. -/
theorem block_index6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The body's result at (a, b), for staged tables that agree with the pooled table X along row a, with the weights W
    down column b and with the bias row R at column b: entry (a, b) of X · W plus R's entry b. A reshape to the same
    shape and a change of float format are the identity at the extended reals; the product into the zero accumulator is
    the finite sum over the 128 contracted coordinates, the whole product's sum at (a, b); and both ways of spreading
    the one-row table over the 512 rows read its entry (0, b). -/
theorem head_of_tile6 (x0 : Vec Ideal S512x128 .f32) (x1 : Vec Ideal S128x64 .f32) (x2 : Vec Ideal S1x64 .f32)
    (X : Vec Ideal S512x128 .f32) (W : Vec Ideal S128x64 .f32) (R : Vec Ideal S1x64 .f32)
    (a : Fin 512) (b : Fin 64)
    (hrow : ∀ k : Fin 128, x0 (ix2 a k) = X (ix2 a k)) (hW : ∀ k : Fin 128, x1 (ix2 k b) = W (ix2 k b))
    (hR : x2 (ix2 (0 : Fin 1) b) = R (ix2 (0 : Fin 1) b)) :
    k6_pay1 (F := Ideal) x0 x1 x2 (ix2 a b) = Cert.Chains.headRow (F := Ideal) X W R (ix2 a b) := by
  dsimp only [k6_pay1, Cert.Chains.headRow]
  rw [addf_apply, addf_apply]
  refine congrArg₂ (fun u v : EReal => u + v) ?_ ?_
  · exact TileMatmul.matmul_tile_eq_dotGeneral _ _ none none _ _ X W a b a
      (fun k => (congrFun (shapeCast_self x0 _) (ix2 a k)).trans (hrow k)) hW
  · rw [shapeCast_self]
    refine (broadcastTo_apply x2 _ (ix2 a b) (ix2 (0 : Fin 1) b) fun d => ?_).trans
      (hR.trans (broadcastInDim_apply _ _ R (ix2 a b) (ix2 (0 : Fin 1) b) fun d => ?_).symm)
    · match d with
      | ⟨0, _⟩ => rfl
      | ⟨1, _⟩ => rfl
    · match d with
      | ⟨0, _⟩ => rfl
      | ⟨1, _⟩ => rfl

/-- The staged pooled table is the whole pooled table. -/
theorem pooled_block6 (c : Dev nD) (t : Fin cfg6.N) (p : Fin 512) (k : Fin 128) :
    iblk6 V c 0 t (ix2 p k) = V c main_v89 (ix2 p k) := by
  obtain ⟨e0, e1, -, -, -, -, -, -⟩ := block_index6 t
  unfold iblk6
  rw [View.read_apply]
  show V c main_v89 _ = V c main_v89 _
  congr 1
  funext a
  apply Fin.ext
  match a with
  | ⟨0, _⟩ => show win6_0.index t (0 : Fin 2) * 512 + 1 * p.val = p.val; omega
  | ⟨1, _⟩ => show win6_0.index t (1 : Fin 2) * 128 + 1 * k.val = k.val; omega

/-- The staged weights are the whole weight table. -/
theorem weight_block6 (c : Dev nD) (t : Fin cfg6.N) (k : Fin 128) (q : Fin 64) :
    iblk6 V c 1 t (ix2 k q) = V c main_arg9 (ix2 k q) := by
  obtain ⟨-, -, e2, e3, -, -, -, -⟩ := block_index6 t
  unfold iblk6
  rw [View.read_apply]
  show V c main_arg9 _ = V c main_arg9 _
  congr 1
  funext a
  apply Fin.ext
  match a with
  | ⟨0, _⟩ => show win6_1.index t (0 : Fin 2) * 128 + 1 * k.val = k.val; omega
  | ⟨1, _⟩ => show win6_1.index t (1 : Fin 2) * 64 + 1 * q.val = q.val; omega

/-- The staged bias row is the whole one-row table. -/
theorem bias_block6 (c : Dev nD) (t : Fin cfg6.N) (z : Fin 1) (q : Fin 64) :
    iblk6 V c 2 t (ix2 z q) = V c main_v90 (ix2 z q) := by
  obtain ⟨-, -, -, -, e4, e5, -, -⟩ := block_index6 t
  unfold iblk6
  rw [View.read_apply]
  show V c main_v90 _ = V c main_v90 _
  congr 1
  funext a
  apply Fin.ext
  match a with
  | ⟨0, _⟩ => show win6_2.index t (0 : Fin 2) * 1 + 1 * z.val = z.val; omega
  | ⟨1, _⟩ => show win6_2.index t (1 : Fin 2) * 64 + 1 * q.val = q.val; omega

/-- A table P that agrees with an array G entry by entry is what the output window's one block reads off G. -/
theorem tile_is_block6 (P : Vec Ideal S512x64 .f32) (G : Vec Ideal S512x64 .f32) (t : Fin cfg6.N)
    (h : ∀ (p : Fin 512) (q : Fin 64), P (ix2 p q) = G (ix2 p q)) :
    (cfg6.win 3).cut (grid6.coords t) P = ((cfg6.win 3).blk t).view.read (Elt Ideal) G := by
  obtain ⟨-, -, -, -, -, -, e6, e7⟩ := block_index6 t
  funext j
  rw [View.read_apply]
  have hj0 : (j 0).val < 512 := (j 0).isLt
  have hj1 : (j 1).val < 64 := (j 1).isLt
  have hl : (cfg6.win 3).xinj (grid6.coords t) j = ix2 (⟨(j 0).val, hj0⟩ : Fin 512) (⟨(j 1).val, hj1⟩ : Fin 64) :=
    funext fun a => Fin.ext (by match a with | ⟨0, _⟩ => rfl | ⟨1, _⟩ => rfl)
  have hr : ((cfg6.win 3).blk t).view.emb j = ix2 (⟨(j 0).val, hj0⟩ : Fin 512) (⟨(j 1).val, hj1⟩ : Fin 64) :=
    funext fun a => Fin.ext (by
      match a with
      | ⟨0, _⟩ => show win6_3.index t (0 : Fin 2) * 512 + 1 * (j 0).val = (j 0).val; omega
      | ⟨1, _⟩ => show win6_3.index t (1 : Fin 2) * 64 + 1 * (j 1).val = (j 1).val; omega)
  show P ((cfg6.win 3).xinj (grid6.coords t) j) = G (((cfg6.win 3).blk t).view.emb j)
  rw [hl, hr]
  exact h _ _

/-- What the one point writes back is the whole affine map of the pooled table: its product with the weights plus the
    bias row on every row. -/
theorem flushed6_eq (c : Dev nD) (t : Fin cfg6.N) :
    (dat6 (F := Ideal) V c).flushed 3 t
      = ((cfg6.win 3).blk t).view.read (Elt Ideal)
          (Cert.Chains.headRow (F := Ideal) (V c main_v89) (V c main_arg9) (V c main_v90)) := by
  show (cfg6.win 3).cut (grid6.coords t) ((dat6 V c).after 3 t) = _
  rw [after6_3]
  unfold out6_3
  rw [View.canon_unit_zero zero_offsets6]
  simp only [View.ld_unit_zero (S := S512x128) zero_offsets6, View.ld_unit_zero (S := S128x64) zero_offsets6,
    View.ld_unit_zero (S := S1x64) zero_offsets6]
  refine tile_is_block6 (k6_pay1 (F := Ideal) (iblk6 V c 0 t) (iblk6 V c 1 t) (iblk6 V c 2 t))
    (Cert.Chains.headRow (F := Ideal) (V c main_v89) (V c main_arg9) (V c main_v90)) t fun p q => ?_
  exact head_of_tile6 (iblk6 V c 0 t) (iblk6 V c 1 t) (iblk6 V c 2 t) (V c main_v89) (V c main_arg9) (V c main_v90) p q
    (fun k => pooled_block6 V c t p k) (fun k => weight_block6 V c t k q) (bias_block6 V c t 0 q)

/-- An index of the output array is in point t's block iff each coordinate is in the block's range on its axis. -/
theorem mem_block6 (t : Fin cfg6.N) (i : S512x64.Idx) :
    i ∈ ((cfg6.win 3).blk t).view.set ↔ ∀ a : Fin 2, win6_3.index t a * S512x64.size a ≤ (i a).val
      ∧ (i a).val < win6_3.index t a * S512x64.size a + S512x64.size a := by
  show i ∈ ((View.whole main_v91).slice (win6_3.rect t)).set ↔ _
  rw [View.set_slice_whole, Rect.mem_set_unit]
  exact Iff.rfl

/-- REGION 6: the one point's block is the whole output array, so the array ends holding the last affine map of the
    pooled table, the bias given as a one-row table. -/
theorem region6 (c : Dev nD) :
    (dat6 (F := Ideal) V c).arrAt 3 cfg6.N
      = Cert.Chains.headRow (F := Ideal) (V c main_v89) (V c main_arg9) (V c main_v90) := by
  refine (dat6 (F := Ideal) V c).arrAt_eq_of_cover 3
    (Cert.Chains.headRow (F := Ideal) (V c main_v89) (V c main_arg9) (V c main_v90))
    (fun t _ => flushed6_eq V c t) fun i => ?_
  have hi0 : (i 0).val < 512 := (i 0).isLt
  have hi1 : (i 1).val < 64 := (i 1).isLt
  have hN : cfg6.N = 1 := N_6
  have hq : 0 < cfg6.N := by rw [hN]; omega
  obtain ⟨-, -, -, -, -, -, e6, e7⟩ := block_index6 ⟨0, hq⟩
  refine ⟨⟨0, hq⟩, flush6_3 _, ?_⟩
  rw [mem_block6]
  intro a
  match a with
  | ⟨0, _⟩ =>
    show win6_3.index ⟨0, hq⟩ (0 : Fin 2) * 512 ≤ (i 0).val ∧ (i 0).val < win6_3.index ⟨0, hq⟩ (0 : Fin 2) * 512 + 512
    rw [e6]; omega
  | ⟨1, _⟩ =>
    show win6_3.index ⟨0, hq⟩ (1 : Fin 2) * 64 ≤ (i 1).val ∧ (i 1).val < win6_3.index ⟨0, hq⟩ (1 : Fin 2) * 64 + 64
    rw [e7]; omega

end Cert.KernelIdeal.RegionValue

end
-- ==== Proof.KValue.lean ====
/-
  The idealized kernel's result is the network of its arguments.

  The program alternates kernel launches with stretches of host operations.  Walking from the launch to the return:
  the first stretch lays out the edges (sources, destinations) and their weights; a launch multiplies the node
  features by the layer's weights, tile by tile, which is the whole matrix product; the next stretch passes the
  messages along the edges and lays the layer's bias as a one-row table; a launch adds the bias row and takes the larger
  of that and 0; and so on for three layers; then a stretch averages the nodes per graph, and the last launch applies the
  last affine map.  Each buffer a step reads is carried back to where it was written (every buffer is written once), so
  each step's result is a named function of the previous step's result and of the argument arrays; composed, they are
  the network.  A bias reshaped to a one-row table is the bias broadcast onto the table's second axis.
-/
import proofs.«145999_j15487652069425_1_alg».proof.Proof.Gen.KernelIdeal.Frame
import proofs.«145999_j15487652069425_1_alg».proof.Proof.Gen.ReferenceIdeal
import proofs.«145999_j15487652069425_1_alg».proof.Proof.Chains
import proofs.«145999_j15487652069425_1_alg».proof.Proof.LibVecRow
import proofs.«145999_j15487652069425_1_alg».proof.Proof.KKeeps
import proofs.«145999_j15487652069425_1_alg».proof.Proof.KStretches
import proofs.«145999_j15487652069425_1_alg».proof.Proof.KRun
import proofs.«145999_j15487652069425_1_alg».proof.Proof.KRegion0
import proofs.«145999_j15487652069425_1_alg».proof.Proof.KRegion1
import proofs.«145999_j15487652069425_1_alg».proof.Proof.KRegion2
import proofs.«145999_j15487652069425_1_alg».proof.Proof.KRegion3
import proofs.«145999_j15487652069425_1_alg».proof.Proof.KRegion4
import proofs.«145999_j15487652069425_1_alg».proof.Proof.KRegion5
import proofs.«145999_j15487652069425_1_alg».proof.Proof.KRegion6

noncomputable section

namespace Cert.KernelIdeal.Net

open Idealize.ShloMosaic Idealize.ShloMosaic.TcCoe Cert.KernelIdeal Cert.KernelIdeal.Gen
open Cert.KernelIdeal.Keeps Cert.KernelIdeal.Stretch Cert.Chains
open Cert.KernelIdeal.RegionValue

/-! ## A bias laid as a one-row table, two ways -/

/-- The kernel reshapes a bias vector to a one-row table; the reference broadcasts it onto the table's second axis. -/
theorem row128 (b : (⟨S128, .f32⟩ : BufTy).Contents (Elt Ideal)) :
    shapeCast S1x128 b Cert.KernelIdeal.Facts₀.shapeCasts_S128_S1x128
      = broadcastInDim Cert.ReferenceIdeal.S1x128 ![1] Cert.ReferenceIdeal.Facts₀.bcast_S128_S1x128_1 b :=
  Cert.LibVecRow.shapeCast_vec_eq_broadcastInDim b _ _

theorem row64 (b : (⟨S64, .f32⟩ : BufTy).Contents (Elt Ideal)) :
    shapeCast S1x64 b Cert.KernelIdeal.Facts₀.shapeCasts_S64_S1x64
      = broadcastInDim Cert.ReferenceIdeal.S1x64 ![1] Cert.ReferenceIdeal.Facts₀.bcast_S64_S1x64_1 b :=
  Cert.LibVecRow.shapeCast_vec_eq_broadcastInDim b _ _

/-- Message passing of equal inputs is equal. -/
theorem agg_congr {s s' d d' : (⟨Cert.ReferenceIdeal.S1700000, .i32⟩ : BufTy).Contents (Elt Ideal)}
    {n n' : (⟨Cert.ReferenceIdeal.S1700000, .f32⟩ : BufTy).Contents (Elt Ideal)}
    {y y' : (⟨Cert.ReferenceIdeal.S100000x128, .f32⟩ : BufTy).Contents (Elt Ideal)}
    (hs : s = s') (hd : d = d') (hn : n = n') (hy : y = y') : aggOf s d n y = aggOf s' d' n' y' := by
  rw [hs, hd, hn, hy]

variable (m : (ℓ : Loc nD τ sig) → Buf (Elt Ideal) ℓ) (ρ : Dev nD → PrngReg) (c : Dev nD)

/-! ## The edges, as the first launch finds them and as every later stretch finds them -/

theorem src3 : W3 m ρ c (Proc.devRef .tc main_v3) = srcOf (m ((c : Thread nD τ).loc main_arg1)) := src_eq (W0 m ρ c)
theorem dst3 : W3 m ρ c (Proc.devRef .tc main_v6) = dstOf (m ((c : Thread nD τ).loc main_arg1)) := dst_eq (W0 m ρ c)
theorem norm3 : W3 m ρ c (Proc.devRef .tc main_v29) = normOf (srcOf (m ((c : Thread nD τ).loc main_arg1))) (dstOf (m ((c : Thread nD τ).loc main_arg1))) := norm_eq (W0 m ρ c)

/-! ## Layer 1 -/

/-- The first launch leaves x · W1. -/
theorem dense_1 : W4 m ρ c (Proc.devRef .tc main_v30) = dense1 (m ((c : Thread nD τ).loc main_arg0)) (m ((c : Thread nD τ).loc main_arg3)) :=
  (W4_arr m ρ c 2).trans ((region0 (V3 m ρ) c).trans
    (congrArg₂ (dense1 (F := Ideal)) (at3 m ρ c main_arg0 (by decide) (by decide) (by decide)) (at3 m ρ c main_arg3 (by decide) (by decide) (by decide))))

/-- The stretch after it passes the messages. -/
theorem agg_1 {y} (hy : W4 m ρ c (Proc.devRef .tc main_v30) = y) :
    W5 m ρ c (Proc.devRef .tc main_v43) = aggOf (srcOf (m ((c : Thread nD τ).loc main_arg1))) (dstOf (m ((c : Thread nD τ).loc main_arg1))) (normOf (srcOf (m ((c : Thread nD τ).loc main_arg1))) (dstOf (m ((c : Thread nD τ).loc main_arg1)))) y :=
  (agg1_eq (W4 m ρ c)).trans (agg_congr
    ((at4 m ρ c main_v3 (by decide)).trans (src3 m ρ c)) ((at4 m ρ c main_v6 (by decide)).trans (dst3 m ρ c))
    ((at4 m ρ c main_v29 (by decide)).trans (norm3 m ρ c)) hy)

/-- and lays the first bias as a row. -/
theorem row_1 : W5 m ρ c (Proc.devRef .tc main_v44)
    = broadcastInDim Cert.ReferenceIdeal.S1x128 ![1] Cert.ReferenceIdeal.Facts₀.bcast_S128_S1x128_1 (m ((c : Thread nD τ).loc main_arg4)) :=
  (row1_eq (W4 m ρ c)).trans ((congrArg (fun b => shapeCast S1x128 b Cert.KernelIdeal.Facts₀.shapeCasts_S128_S1x128)
    ((at4 m ρ c main_arg4 (by decide)).trans (at3 m ρ c main_arg4 (by decide) (by decide) (by decide)))).trans (row128 _))

/-- The second launch adds the bias and takes the larger of that and 0. -/
theorem relu_1 {a} (ha : W5 m ρ c (Proc.devRef .tc main_v43) = a) :
    W6 m ρ c (Proc.devRef .tc main_v45) = biasRelu a (m ((c : Thread nD τ).loc main_arg4)) :=
  (W6_arr m ρ c 2).trans ((region1 (V5 m ρ) c).trans (congrArg₂ (biasReluRow (F := Ideal)) ha (row_1 m ρ c)))

/-! ## Layer 2 -/

theorem dense_2 {h} (hh : W6 m ρ c (Proc.devRef .tc main_v45) = h) :
    W7 m ρ c (Proc.devRef .tc main_v46) = dense2 h (m ((c : Thread nD τ).loc main_arg5)) :=
  (W7_arr m ρ c 2).trans ((region2 (V6 m ρ) c).trans
    (congrArg₂ (dense2 (F := Ideal)) hh ((at6 m ρ c main_arg5 (by decide) (by decide) (by decide)).trans (at3 m ρ c main_arg5 (by decide) (by decide) (by decide)))))

theorem agg_2 {y} (hy : W7 m ρ c (Proc.devRef .tc main_v46) = y) :
    W8 m ρ c (Proc.devRef .tc main_v59) = aggOf (srcOf (m ((c : Thread nD τ).loc main_arg1))) (dstOf (m ((c : Thread nD τ).loc main_arg1))) (normOf (srcOf (m ((c : Thread nD τ).loc main_arg1))) (dstOf (m ((c : Thread nD τ).loc main_arg1)))) y :=
  (agg2_eq (W7 m ρ c)).trans (agg_congr
    ((at7 m ρ c main_v3 (by decide) (by decide) (by decide) (by decide)).trans (src3 m ρ c)) ((at7 m ρ c main_v6 (by decide) (by decide) (by decide) (by decide)).trans (dst3 m ρ c))
    ((at7 m ρ c main_v29 (by decide) (by decide) (by decide) (by decide)).trans (norm3 m ρ c)) hy)

theorem row_2 : W8 m ρ c (Proc.devRef .tc main_v60)
    = broadcastInDim Cert.ReferenceIdeal.S1x128 ![1] Cert.ReferenceIdeal.Facts₀.bcast_S128_S1x128_1 (m ((c : Thread nD τ).loc main_arg6)) :=
  (row2_eq (W7 m ρ c)).trans ((congrArg (fun b => shapeCast S1x128 b Cert.KernelIdeal.Facts₀.shapeCasts_S128_S1x128)
    ((at7 m ρ c main_arg6 (by decide) (by decide) (by decide) (by decide)).trans (at3 m ρ c main_arg6 (by decide) (by decide) (by decide)))).trans (row128 _))

theorem relu_2 {a} (ha : W8 m ρ c (Proc.devRef .tc main_v59) = a) :
    W9 m ρ c (Proc.devRef .tc main_v61) = biasRelu a (m ((c : Thread nD τ).loc main_arg6)) :=
  (W9_arr m ρ c 2).trans ((region3 (V8 m ρ) c).trans (congrArg₂ (biasReluRow (F := Ideal)) ha (row_2 m ρ c)))

/-! ## Layer 3 -/

theorem dense_3 {h} (hh : W9 m ρ c (Proc.devRef .tc main_v61) = h) :
    W10 m ρ c (Proc.devRef .tc main_v62) = dense2 h (m ((c : Thread nD τ).loc main_arg7)) :=
  (W10_arr m ρ c 2).trans ((region4 (V9 m ρ) c).trans
    (congrArg₂ (dense2 (F := Ideal)) hh ((at9 m ρ c main_arg7 (by decide) (by decide) (by decide) (by decide) (by decide) (by decide)).trans (at3 m ρ c main_arg7 (by decide) (by decide) (by decide)))))

theorem agg_3 {y} (hy : W10 m ρ c (Proc.devRef .tc main_v62) = y) :
    W11 m ρ c (Proc.devRef .tc main_v75) = aggOf (srcOf (m ((c : Thread nD τ).loc main_arg1))) (dstOf (m ((c : Thread nD τ).loc main_arg1))) (normOf (srcOf (m ((c : Thread nD τ).loc main_arg1))) (dstOf (m ((c : Thread nD τ).loc main_arg1)))) y :=
  (agg3_eq (W10 m ρ c)).trans (agg_congr
    ((at10 m ρ c main_v3 (by decide) (by decide) (by decide) (by decide) (by decide) (by decide) (by decide)).trans (src3 m ρ c)) ((at10 m ρ c main_v6 (by decide) (by decide) (by decide) (by decide) (by decide) (by decide) (by decide)).trans (dst3 m ρ c))
    ((at10 m ρ c main_v29 (by decide) (by decide) (by decide) (by decide) (by decide) (by decide) (by decide)).trans (norm3 m ρ c)) hy)

theorem row_3 : W11 m ρ c (Proc.devRef .tc main_v76)
    = broadcastInDim Cert.ReferenceIdeal.S1x128 ![1] Cert.ReferenceIdeal.Facts₀.bcast_S128_S1x128_1 (m ((c : Thread nD τ).loc main_arg8)) :=
  (row3_eq (W10 m ρ c)).trans ((congrArg (fun b => shapeCast S1x128 b Cert.KernelIdeal.Facts₀.shapeCasts_S128_S1x128)
    ((at10 m ρ c main_arg8 (by decide) (by decide) (by decide) (by decide) (by decide) (by decide) (by decide)).trans (at3 m ρ c main_arg8 (by decide) (by decide) (by decide)))).trans (row128 _))

theorem relu_3 {a} (ha : W11 m ρ c (Proc.devRef .tc main_v75) = a) :
    W12 m ρ c (Proc.devRef .tc main_v77) = biasRelu a (m ((c : Thread nD τ).loc main_arg8)) :=
  (W12_arr m ρ c 2).trans ((region5 (V11 m ρ) c).trans (congrArg₂ (biasReluRow (F := Ideal)) ha (row_3 m ρ c)))

/-! ## The per-graph average and the last affine map -/

theorem pool {h} (hh : W12 m ρ c (Proc.devRef .tc main_v77) = h) :
    W13 m ρ c (Proc.devRef .tc main_v89) = poolOf (m ((c : Thread nD τ).loc main_arg2)) h :=
  (pool_eq (W12 m ρ c)).trans (congrArg₂ (poolOf (F := Ideal))
    ((at12 m ρ c main_arg2 (by decide) (by decide) (by decide) (by decide) (by decide) (by decide) (by decide) (by decide) (by decide)).trans (at3 m ρ c main_arg2 (by decide) (by decide) (by decide))) hh)

theorem row_out : W13 m ρ c (Proc.devRef .tc main_v90)
    = broadcastInDim Cert.ReferenceIdeal.S1x64 ![1] Cert.ReferenceIdeal.Facts₀.bcast_S64_S1x64_1 (m ((c : Thread nD τ).loc main_arg10)) :=
  (rowOut_eq (W12 m ρ c)).trans ((congrArg (fun b => shapeCast S1x64 b Cert.KernelIdeal.Facts₀.shapeCasts_S64_S1x64)
    ((at12 m ρ c main_arg10 (by decide) (by decide) (by decide) (by decide) (by decide) (by decide) (by decide) (by decide) (by decide)).trans (at3 m ρ c main_arg10 (by decide) (by decide) (by decide)))).trans (row64 _))

theorem out {p} (hp : W13 m ρ c (Proc.devRef .tc main_v89) = p) :
    W14 m ρ c (Proc.devRef .tc main_v91) = head p (m ((c : Thread nD τ).loc main_arg9)) (m ((c : Thread nD τ).loc main_arg10)) :=
  (W14_arr m ρ c 3).trans ((region6 (V13 m ρ) c).trans
    (by
      have h9 : V13 m ρ c main_arg9 = (m ((c : Thread nD τ).loc main_arg9)) := (at13 m ρ c main_arg9 (by decide) (by decide) (by decide) (by decide) (by decide) (by decide) (by decide) (by decide) (by decide) (by decide)).trans (at3 m ρ c main_arg9 (by decide) (by decide) (by decide))
      have h90 := row_out m ρ c
      show headRow (W13 m ρ c (Proc.devRef .tc main_v89)) (V13 m ρ c main_arg9) (W13 m ρ c (Proc.devRef .tc main_v90)) = _
      rw [hp, h9, h90]
      rfl))

/-- The result buffer ends at the whole network of the argument arrays. -/
theorem result :
    W14 m ρ c (Proc.devRef .tc main_v91)
      = model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  out m ρ c (pool m ρ c (relu_3 m ρ c (agg_3 m ρ c (dense_3 m ρ c (relu_2 m ρ c (agg_2 m ρ c (dense_2 m ρ c (relu_1 m ρ c (agg_1 m ρ c (dense_1 m ρ c))))))))))

end Cert.KernelIdeal.Net

namespace Cert.KernelIdeal.Net

open Idealize.ShloMosaic Idealize.ShloMosaic.TcCoe Idealize.SL.Sem Cert.KernelIdeal Cert.KernelIdeal.Gen Cert.Chains

/-- Every weakly fair execution of the idealized kernel terminates without a fault, with the result buffer at the
    whole network of the argument arrays and the argument arrays unchanged. -/
theorem run_model (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v91)
        = model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Cert.KernelIdeal.Named.run_named m ρ)

end Cert.KernelIdeal.Net

end
-- ==== Proof.RefStages.lean ====
/-
  The reference's run, read back as the network of `Chains`.

  The reference is one straight line of 195 host operations, cut into fifteen consecutive stretches.  Each stretch is
  read once, over an arbitrary valuation of the buffers: the buffer it is there to compute is one of the network's
  functions (`srcOf`, `dstOf`, `dense1`, `dinvOf`, `aggOf`, `biasRelu` then `dense2`, `poolOf`, `head`) of the buffers
  it reads, and every buffer it does not write is kept.  The three layers each recompute the edges' weights from the
  same source and destination tables, so the three weight chains give the same `normOf src dst`.  The stretches are
  then chained: the contents after `k` stretches are an opaque valuation for stretch `k`, so that no composed term is
  ever evaluated, and the result buffer comes out as `model` of the arguments' launch contents.
-/
import proofs.«145999_j15487652069425_1_alg».proof.Proof.RefRun
import proofs.«145999_j15487652069425_1_alg».proof.Proof.Chains

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-! ## Each stretch over an arbitrary valuation

Every lemma here unfolds the stretch's fold at its result buffer to the operations' functions applied to the valuation at
the buffers the stretch reads; what is left is the definition of the network's function, term for term. -/

/-- The edges' weights from given per-node factors: the product of the factors at an edge's two ends. With the
    factors `dinvOf dst` this is `normOf`. -/
def normFrom (dinv : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 dinv (Cert.Chains.wrapIdx src))
    (Host.gather gather_S100000_S1700000x1_S1700000_n_0_n_n_0_1_1 dinv (Cert.Chains.wrapIdx dst))

theorem normOf_eq (src dst : (⟨S1700000, .i32⟩ : BufTy).Contents (Elt F)) :
    Cert.Chains.normOf src dst = normFrom (Cert.Chains.dinvOf dst) src dst := rfl

/-- Stretch 0: row 0 of the edge table, reshaped to a vector and followed by the self loops, is `srcOf` of the table. -/
theorem seg0_v3 (W : Valuation τ sig (Elt F)) :
    after seg0 W (Proc.devRef .tc main_v3) = Cert.Chains.srcOf (W (Proc.devRef .tc main_arg1)) := by
  simp only [seg0]
  after_results_simp
  rfl

/-- Stretch 0: row 1 of the edge table, reshaped and followed by the self loops, is `dstOf` of the table. -/
theorem seg0_v6 (W : Valuation τ sig (Elt F)) :
    after seg0 W (Proc.devRef .tc main_v6) = Cert.Chains.dstOf (W (Proc.devRef .tc main_arg1)) := by
  simp only [seg0]
  after_results_simp
  rfl

/-- Stretch 0: the first layer's dense step. -/
theorem seg0_v7 (W : Valuation τ sig (Elt F)) :
    after seg0 W (Proc.devRef .tc main_v7) = Cert.Chains.dense1 (W (Proc.devRef .tc main_arg0)) (W (Proc.devRef .tc main_arg3)) := by
  simp only [seg0]
  after_results_simp
  rfl

/-- Stretch 1: ones added up at the destinations, then the reciprocal square root where the count is positive and 0
    elsewhere (the inlined `_where` call is the `select`), is `dinvOf` of the destinations. -/
theorem seg1_v15 (W : Valuation τ sig (Elt F)) :
    after seg1 W (Proc.devRef .tc main_v15) = Cert.Chains.dinvOf (W (Proc.devRef .tc main_v6)) := by
  simp only [seg1]
  after_results_simp
  simp only [TRef.toBuf, TRef.ofBuf, cast_eq, id]
  rfl

/-- Stretch 2: both index tables wrapped and laid as columns, the per-node factors gathered at each, and the two
    gathered vectors multiplied. -/
theorem seg2_v30 (W : Valuation τ sig (Elt F)) :
    after seg2 W (Proc.devRef .tc main_v30) = normFrom (W (Proc.devRef .tc main_v15)) (W (Proc.devRef .tc main_v3)) (W (Proc.devRef .tc main_v6)) := by
  simp only [seg2]
  after_results_simp
  rfl

/-- Stretch 3: the dense rows gathered at the wrapped sources, scaled by the weights broadcast along the rows, and
    added up at the destinations from zero, is `aggOf`. -/
theorem seg3_v43 (W : Valuation τ sig (Elt F)) :
    after seg3 W (Proc.devRef .tc main_v43) = Cert.Chains.aggOf (W (Proc.devRef .tc main_v3)) (W (Proc.devRef .tc main_v6)) (W (Proc.devRef .tc main_v30)) (W (Proc.devRef .tc main_v7)) := by
  simp only [seg3]
  after_results_simp
  rfl

/-- Stretch 4: the bias broadcast and added, the inlined `relu` call (the larger of that and 0), then the second
    layer's dense step. -/
theorem seg4_v48 (W : Valuation τ sig (Elt F)) :
    after seg4 W (Proc.devRef .tc main_v48) = Cert.Chains.dense2 (Cert.Chains.biasRelu (W (Proc.devRef .tc main_v43)) (W (Proc.devRef .tc main_arg4))) (W (Proc.devRef .tc main_arg5)) := by
  simp only [seg4]
  after_results_simp
  simp only [TRef.toBuf, TRef.ofBuf, cast_eq, id]
  rfl

/-- Stretch 5: the second layer's copy of stretch 1. -/
theorem seg5_v56 (W : Valuation τ sig (Elt F)) :
    after seg5 W (Proc.devRef .tc main_v56) = Cert.Chains.dinvOf (W (Proc.devRef .tc main_v6)) := by
  simp only [seg5]
  after_results_simp
  simp only [TRef.toBuf, TRef.ofBuf, cast_eq, id]
  rfl

/-- Stretch 6: the second layer's copy of stretch 2. -/
theorem seg6_v71 (W : Valuation τ sig (Elt F)) :
    after seg6 W (Proc.devRef .tc main_v71) = normFrom (W (Proc.devRef .tc main_v56)) (W (Proc.devRef .tc main_v3)) (W (Proc.devRef .tc main_v6)) := by
  simp only [seg6]
  after_results_simp
  rfl

/-- Stretch 7: the second layer's copy of stretch 3. -/
theorem seg7_v84 (W : Valuation τ sig (Elt F)) :
    after seg7 W (Proc.devRef .tc main_v84) = Cert.Chains.aggOf (W (Proc.devRef .tc main_v3)) (W (Proc.devRef .tc main_v6)) (W (Proc.devRef .tc main_v71)) (W (Proc.devRef .tc main_v48)) := by
  simp only [seg7]
  after_results_simp
  rfl

/-- Stretch 8: the second layer's bias and clamp, then the third layer's dense step. -/
theorem seg8_v89 (W : Valuation τ sig (Elt F)) :
    after seg8 W (Proc.devRef .tc main_v89) = Cert.Chains.dense2 (Cert.Chains.biasRelu (W (Proc.devRef .tc main_v84)) (W (Proc.devRef .tc main_arg6))) (W (Proc.devRef .tc main_arg7)) := by
  simp only [seg8]
  after_results_simp
  simp only [TRef.toBuf, TRef.ofBuf, cast_eq, id]
  rfl

/-- Stretch 9: the third layer's copy of stretch 1. -/
theorem seg9_v97 (W : Valuation τ sig (Elt F)) :
    after seg9 W (Proc.devRef .tc main_v97) = Cert.Chains.dinvOf (W (Proc.devRef .tc main_v6)) := by
  simp only [seg9]
  after_results_simp
  simp only [TRef.toBuf, TRef.ofBuf, cast_eq, id]
  rfl

/-- Stretch 10: the third layer's copy of stretch 2. -/
theorem seg10_v112 (W : Valuation τ sig (Elt F)) :
    after seg10 W (Proc.devRef .tc main_v112) = normFrom (W (Proc.devRef .tc main_v97)) (W (Proc.devRef .tc main_v3)) (W (Proc.devRef .tc main_v6)) := by
  simp only [seg10]
  after_results_simp
  rfl

/-- Stretch 11: the third layer's copy of stretch 3. -/
theorem seg11_v125 (W : Valuation τ sig (Elt F)) :
    after seg11 W (Proc.devRef .tc main_v125) = Cert.Chains.aggOf (W (Proc.devRef .tc main_v3)) (W (Proc.devRef .tc main_v6)) (W (Proc.devRef .tc main_v112)) (W (Proc.devRef .tc main_v89)) := by
  simp only [seg11]
  after_results_simp
  rfl

/-- Stretch 12: the third layer's bias and clamp. -/
theorem seg12_v129 (W : Valuation τ sig (Elt F)) :
    after seg12 W (Proc.devRef .tc main_v129) = Cert.Chains.biasRelu (W (Proc.devRef .tc main_v125)) (W (Proc.devRef .tc main_arg8)) := by
  simp only [seg12]
  after_results_simp
  simp only [TRef.toBuf, TRef.ofBuf, cast_eq, id]
  rfl

/-- Stretch 13: the rows added up per graph, over the larger of the graph's number of nodes and 1, is `poolOf`. -/
theorem seg13_v141 (W : Valuation τ sig (Elt F)) :
    after seg13 W (Proc.devRef .tc main_v141) = Cert.Chains.poolOf (W (Proc.devRef .tc main_arg2)) (W (Proc.devRef .tc main_v129)) := by
  simp only [seg13]
  after_results_simp
  rfl

/-- Stretch 14: the last dense step plus its broadcast bias is `head`. -/
theorem seg14_v145 (W : Valuation τ sig (Elt F)) :
    after seg14 W (Proc.devRef .tc main_v145) = Cert.Chains.head (W (Proc.devRef .tc main_v141)) (W (Proc.devRef .tc main_arg9)) (W (Proc.devRef .tc main_arg10)) := by
  simp only [seg14]
  after_results_simp
  rfl

/-! ## What each stretch writes, and keeps -/

/-- The buffers stretch 0 writes. -/
abbrev seg0_W : List (Ref sig .tc) := [main_v0, main_v1, main_v2, main_v3, main_v4, main_v5, main_v6, main_v7]
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 0 does not write keeps its contents through it. -/
theorem seg0_keep (W : Valuation τ sig (Elt F)) (r : Ref sig .tc) (h : r ∉ seg0_W) :
    after seg0 W (Proc.devRef .tc r) = W (Proc.devRef .tc r) :=
  after_of_writes_sub seg0 _ seg0_writes h

/-- The buffers stretch 1 writes. -/
abbrev seg1_W : List (Ref sig .tc) := [main_cst, main_v8, main_cst_0, main_v9, main_v10, main_v11, main_cst_1, main_v12, main_v13, main_v14, main_cst_2, main_call0_v0, main_call0_v1, main_v15]
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 1 does not write keeps its contents through it. -/
theorem seg1_keep (W : Valuation τ sig (Elt F)) (r : Ref sig .tc) (h : r ∉ seg1_W) :
    after seg1 W (Proc.devRef .tc r) = W (Proc.devRef .tc r) :=
  after_of_writes_sub seg1 _ seg1_writes h

/-- The buffers stretch 2 writes. -/
abbrev seg2_W : List (Ref sig .tc) := [main_c, main_v16, main_v17, main_c_3, main_v18, main_v19, main_v20, main_v21, main_v22, main_c_4, main_v23, main_v24, main_c_5, main_v25, main_v26, main_v27, main_v28, main_v29, main_v30]
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 2 does not write keeps its contents through it. -/
theorem seg2_keep (W : Valuation τ sig (Elt F)) (r : Ref sig .tc) (h : r ∉ seg2_W) :
    after seg2 W (Proc.devRef .tc r) = W (Proc.devRef .tc r) :=
  after_of_writes_sub seg2 _ seg2_writes h

/-- The buffers stretch 3 writes. -/
abbrev seg3_W : List (Ref sig .tc) := [main_c_6, main_v31, main_v32, main_c_7, main_v33, main_v34, main_v35, main_v36, main_v37, main_v38, main_v39, main_v40, main_cst_8, main_v41, main_v42, main_v43]
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 3 does not write keeps its contents through it. -/
theorem seg3_keep (W : Valuation τ sig (Elt F)) (r : Ref sig .tc) (h : r ∉ seg3_W) :
    after seg3 W (Proc.devRef .tc r) = W (Proc.devRef .tc r) :=
  after_of_writes_sub seg3 _ seg3_writes h

/-- The buffers stretch 4 writes. -/
abbrev seg4_W : List (Ref sig .tc) := [main_v44, main_v45, main_v46, main_call1_cst, main_call1_v0, main_v47, main_v48]
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 4 does not write keeps its contents through it. -/
theorem seg4_keep (W : Valuation τ sig (Elt F)) (r : Ref sig .tc) (h : r ∉ seg4_W) :
    after seg4 W (Proc.devRef .tc r) = W (Proc.devRef .tc r) :=
  after_of_writes_sub seg4 _ seg4_writes h

/-- The buffers stretch 5 writes. -/
abbrev seg5_W : List (Ref sig .tc) := [main_cst_9, main_v49, main_cst_10, main_v50, main_v51, main_v52, main_cst_11, main_v53, main_v54, main_v55, main_cst_12, main_call2_v0, main_call2_v1, main_v56]
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 5 does not write keeps its contents through it. -/
theorem seg5_keep (W : Valuation τ sig (Elt F)) (r : Ref sig .tc) (h : r ∉ seg5_W) :
    after seg5 W (Proc.devRef .tc r) = W (Proc.devRef .tc r) :=
  after_of_writes_sub seg5 _ seg5_writes h

/-- The buffers stretch 6 writes. -/
abbrev seg6_W : List (Ref sig .tc) := [main_c_13, main_v57, main_v58, main_c_14, main_v59, main_v60, main_v61, main_v62, main_v63, main_c_15, main_v64, main_v65, main_c_16, main_v66, main_v67, main_v68, main_v69, main_v70, main_v71]
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 6 does not write keeps its contents through it. -/
theorem seg6_keep (W : Valuation τ sig (Elt F)) (r : Ref sig .tc) (h : r ∉ seg6_W) :
    after seg6 W (Proc.devRef .tc r) = W (Proc.devRef .tc r) :=
  after_of_writes_sub seg6 _ seg6_writes h

/-- The buffers stretch 7 writes. -/
abbrev seg7_W : List (Ref sig .tc) := [main_c_17, main_v72, main_v73, main_c_18, main_v74, main_v75, main_v76, main_v77, main_v78, main_v79, main_v80, main_v81, main_cst_19, main_v82, main_v83, main_v84]
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 7 does not write keeps its contents through it. -/
theorem seg7_keep (W : Valuation τ sig (Elt F)) (r : Ref sig .tc) (h : r ∉ seg7_W) :
    after seg7 W (Proc.devRef .tc r) = W (Proc.devRef .tc r) :=
  after_of_writes_sub seg7 _ seg7_writes h

/-- The buffers stretch 8 writes. -/
abbrev seg8_W : List (Ref sig .tc) := [main_v85, main_v86, main_v87, main_call3_cst, main_call3_v0, main_v88, main_v89]
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 8 does not write keeps its contents through it. -/
theorem seg8_keep (W : Valuation τ sig (Elt F)) (r : Ref sig .tc) (h : r ∉ seg8_W) :
    after seg8 W (Proc.devRef .tc r) = W (Proc.devRef .tc r) :=
  after_of_writes_sub seg8 _ seg8_writes h

/-- The buffers stretch 9 writes. -/
abbrev seg9_W : List (Ref sig .tc) := [main_cst_20, main_v90, main_cst_21, main_v91, main_v92, main_v93, main_cst_22, main_v94, main_v95, main_v96, main_cst_23, main_call4_v0, main_call4_v1, main_v97]
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 9 does not write keeps its contents through it. -/
theorem seg9_keep (W : Valuation τ sig (Elt F)) (r : Ref sig .tc) (h : r ∉ seg9_W) :
    after seg9 W (Proc.devRef .tc r) = W (Proc.devRef .tc r) :=
  after_of_writes_sub seg9 _ seg9_writes h

/-- The buffers stretch 10 writes. -/
abbrev seg10_W : List (Ref sig .tc) := [main_c_24, main_v98, main_v99, main_c_25, main_v100, main_v101, main_v102, main_v103, main_v104, main_c_26, main_v105, main_v106, main_c_27, main_v107, main_v108, main_v109, main_v110, main_v111, main_v112]
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 10 does not write keeps its contents through it. -/
theorem seg10_keep (W : Valuation τ sig (Elt F)) (r : Ref sig .tc) (h : r ∉ seg10_W) :
    after seg10 W (Proc.devRef .tc r) = W (Proc.devRef .tc r) :=
  after_of_writes_sub seg10 _ seg10_writes h

/-- The buffers stretch 11 writes. -/
abbrev seg11_W : List (Ref sig .tc) := [main_c_28, main_v113, main_v114, main_c_29, main_v115, main_v116, main_v117, main_v118, main_v119, main_v120, main_v121, main_v122, main_cst_30, main_v123, main_v124, main_v125]
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 11 does not write keeps its contents through it. -/
theorem seg11_keep (W : Valuation τ sig (Elt F)) (r : Ref sig .tc) (h : r ∉ seg11_W) :
    after seg11 W (Proc.devRef .tc r) = W (Proc.devRef .tc r) :=
  after_of_writes_sub seg11 _ seg11_writes h

/-- The buffers stretch 12 writes. -/
abbrev seg12_W : List (Ref sig .tc) := [main_v126, main_v127, main_v128, main_call5_cst, main_call5_v0, main_v129]
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 12 does not write keeps its contents through it. -/
theorem seg12_keep (W : Valuation τ sig (Elt F)) (r : Ref sig .tc) (h : r ∉ seg12_W) :
    after seg12 W (Proc.devRef .tc r) = W (Proc.devRef .tc r) :=
  after_of_writes_sub seg12 _ seg12_writes h

/-- The buffers stretch 13 writes. -/
abbrev seg13_W : List (Ref sig .tc) := [main_cst_31, main_v130, main_v131, main_v132, main_cst_32, main_v133, main_cst_33, main_v134, main_v135, main_v136, main_cst_34, main_v137, main_v138, main_v139, main_v140, main_v141]
theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 13 does not write keeps its contents through it. -/
theorem seg13_keep (W : Valuation τ sig (Elt F)) (r : Ref sig .tc) (h : r ∉ seg13_W) :
    after seg13 W (Proc.devRef .tc r) = W (Proc.devRef .tc r) :=
  after_of_writes_sub seg13 _ seg13_writes h

/-- The buffers stretch 14 writes. -/
abbrev seg14_W : List (Ref sig .tc) := [main_v142, main_v143, main_v144, main_v145]
theorem seg14_writes : (seg14 : List (HloOp τ sig (Elt F))).Forall fun op => op.writes ⊆ (seg14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stretch 14 does not write keeps its contents through it. -/
theorem seg14_keep (W : Valuation τ sig (Elt F)) (r : Ref sig .tc) (h : r ∉ seg14_W) :
    after seg14 W (Proc.devRef .tc r) = W (Proc.devRef .tc r) :=
  after_of_writes_sub seg14 _ seg14_writes h

/-! ## The run, stretch by stretch

`val k V0` is what the buffers hold after the first `k` stretches, from contents `V0`; a `val` lemma states one buffer of it
as a function of `V0` at @main's arguments, by the stretch's own lemma at the previous `val` (taken as an opaque
valuation) and the previous `val` lemmas of the buffers the stretch reads. -/

variable (V0 : Valuation τ sig (Elt F))

/-- The buffers' contents after stretch 0. -/
def val1 : Valuation τ sig (Elt F) := after seg0 V0
/-- The buffers' contents after stretches 0 … 1. -/
def val2 : Valuation τ sig (Elt F) := after seg1 (val1 V0)
/-- The buffers' contents after stretches 0 … 2. -/
def val3 : Valuation τ sig (Elt F) := after seg2 (val2 V0)
/-- The buffers' contents after stretches 0 … 3. -/
def val4 : Valuation τ sig (Elt F) := after seg3 (val3 V0)
/-- The buffers' contents after stretches 0 … 4. -/
def val5 : Valuation τ sig (Elt F) := after seg4 (val4 V0)
/-- The buffers' contents after stretches 0 … 5. -/
def val6 : Valuation τ sig (Elt F) := after seg5 (val5 V0)
/-- The buffers' contents after stretches 0 … 6. -/
def val7 : Valuation τ sig (Elt F) := after seg6 (val6 V0)
/-- The buffers' contents after stretches 0 … 7. -/
def val8 : Valuation τ sig (Elt F) := after seg7 (val7 V0)
/-- The buffers' contents after stretches 0 … 8. -/
def val9 : Valuation τ sig (Elt F) := after seg8 (val8 V0)
/-- The buffers' contents after stretches 0 … 9. -/
def val10 : Valuation τ sig (Elt F) := after seg9 (val9 V0)
/-- The buffers' contents after stretches 0 … 10. -/
def val11 : Valuation τ sig (Elt F) := after seg10 (val10 V0)
/-- The buffers' contents after stretches 0 … 11. -/
def val12 : Valuation τ sig (Elt F) := after seg11 (val11 V0)
/-- The buffers' contents after stretches 0 … 12. -/
def val13 : Valuation τ sig (Elt F) := after seg12 (val12 V0)
/-- The buffers' contents after stretches 0 … 13. -/
def val14 : Valuation τ sig (Elt F) := after seg13 (val13 V0)
/-- The buffers' contents after stretches 0 … 14. -/
def val15 : Valuation τ sig (Elt F) := after seg14 (val14 V0)

/-- The fold over all of @main's operations is the stretches' folds one after the other. -/
theorem after_ops : after ops V0 = val15 V0 := by
  simp only [ops, after_app]; rfl

/-! The network's intermediate values, over the launch contents of @main's arguments. -/

/-- The edges' sources. -/
def src : (⟨S1700000, .i32⟩ : BufTy).Contents (Elt F) := Cert.Chains.srcOf (V0 (Proc.devRef .tc main_arg1))
/-- The edges' destinations. -/
def dst : (⟨S1700000, .i32⟩ : BufTy).Contents (Elt F) := Cert.Chains.dstOf (V0 (Proc.devRef .tc main_arg1))
/-- The edges' weights (every layer computes them again, from the same two tables). -/
def nrm : (⟨S1700000, .f32⟩ : BufTy).Contents (Elt F) := Cert.Chains.normOf (src V0) (dst V0)
/-- The first layer's message passing, before its bias. -/
def agg1 : (⟨S100000x128, .f32⟩ : BufTy).Contents (Elt F) := Cert.Chains.aggOf (src V0) (dst V0) (nrm V0) (Cert.Chains.dense1 (V0 (Proc.devRef .tc main_arg0)) (V0 (Proc.devRef .tc main_arg3)))
/-- The second layer's dense step. -/
def den2 : (⟨S100000x128, .f32⟩ : BufTy).Contents (Elt F) := Cert.Chains.dense2 (Cert.Chains.biasRelu (agg1 V0) (V0 (Proc.devRef .tc main_arg4))) (V0 (Proc.devRef .tc main_arg5))
/-- The second layer's message passing, before its bias. -/
def agg2 : (⟨S100000x128, .f32⟩ : BufTy).Contents (Elt F) := Cert.Chains.aggOf (src V0) (dst V0) (nrm V0) (den2 V0)
/-- The third layer's dense step. -/
def den3 : (⟨S100000x128, .f32⟩ : BufTy).Contents (Elt F) := Cert.Chains.dense2 (Cert.Chains.biasRelu (agg2 V0) (V0 (Proc.devRef .tc main_arg6))) (V0 (Proc.devRef .tc main_arg7))
/-- The third layer's message passing, before its bias. -/
def agg3 : (⟨S100000x128, .f32⟩ : BufTy).Contents (Elt F) := Cert.Chains.aggOf (src V0) (dst V0) (nrm V0) (den3 V0)
/-- The third layer's result. -/
def act3 : (⟨S100000x128, .f32⟩ : BufTy).Contents (Elt F) := Cert.Chains.biasRelu (agg3 V0) (V0 (Proc.devRef .tc main_arg8))
/-- The per-graph averages. -/
def pool : (⟨S512x128, .f32⟩ : BufTy).Contents (Elt F) := Cert.Chains.poolOf (V0 (Proc.devRef .tc main_arg2)) (act3 V0)

/-- The last affine map of the averages is the whole network of the arguments. -/
theorem model_eq : Cert.Chains.head (pool V0) (V0 (Proc.devRef .tc main_arg9)) (V0 (Proc.devRef .tc main_arg10))
    = Cert.Chains.model (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := rfl

/-! What a stretch does not write it keeps; @main's arguments are written by no stretch. -/

theorem val1_keep (r : Ref sig .tc) (h : r ∉ seg0_W) : val1 V0 (Proc.devRef .tc r) = V0 (Proc.devRef .tc r) := seg0_keep V0 r h
theorem val2_keep (r : Ref sig .tc) (h : r ∉ seg1_W) : val2 V0 (Proc.devRef .tc r) = val1 V0 (Proc.devRef .tc r) := seg1_keep _ r h
theorem val3_keep (r : Ref sig .tc) (h : r ∉ seg2_W) : val3 V0 (Proc.devRef .tc r) = val2 V0 (Proc.devRef .tc r) := seg2_keep _ r h
theorem val4_keep (r : Ref sig .tc) (h : r ∉ seg3_W) : val4 V0 (Proc.devRef .tc r) = val3 V0 (Proc.devRef .tc r) := seg3_keep _ r h
theorem val5_keep (r : Ref sig .tc) (h : r ∉ seg4_W) : val5 V0 (Proc.devRef .tc r) = val4 V0 (Proc.devRef .tc r) := seg4_keep _ r h
theorem val6_keep (r : Ref sig .tc) (h : r ∉ seg5_W) : val6 V0 (Proc.devRef .tc r) = val5 V0 (Proc.devRef .tc r) := seg5_keep _ r h
theorem val7_keep (r : Ref sig .tc) (h : r ∉ seg6_W) : val7 V0 (Proc.devRef .tc r) = val6 V0 (Proc.devRef .tc r) := seg6_keep _ r h
theorem val8_keep (r : Ref sig .tc) (h : r ∉ seg7_W) : val8 V0 (Proc.devRef .tc r) = val7 V0 (Proc.devRef .tc r) := seg7_keep _ r h
theorem val9_keep (r : Ref sig .tc) (h : r ∉ seg8_W) : val9 V0 (Proc.devRef .tc r) = val8 V0 (Proc.devRef .tc r) := seg8_keep _ r h
theorem val10_keep (r : Ref sig .tc) (h : r ∉ seg9_W) : val10 V0 (Proc.devRef .tc r) = val9 V0 (Proc.devRef .tc r) := seg9_keep _ r h
theorem val11_keep (r : Ref sig .tc) (h : r ∉ seg10_W) : val11 V0 (Proc.devRef .tc r) = val10 V0 (Proc.devRef .tc r) := seg10_keep _ r h
theorem val12_keep (r : Ref sig .tc) (h : r ∉ seg11_W) : val12 V0 (Proc.devRef .tc r) = val11 V0 (Proc.devRef .tc r) := seg11_keep _ r h
theorem val13_keep (r : Ref sig .tc) (h : r ∉ seg12_W) : val13 V0 (Proc.devRef .tc r) = val12 V0 (Proc.devRef .tc r) := seg12_keep _ r h
theorem val14_keep (r : Ref sig .tc) (h : r ∉ seg13_W) : val14 V0 (Proc.devRef .tc r) = val13 V0 (Proc.devRef .tc r) := seg13_keep _ r h
theorem val15_keep (r : Ref sig .tc) (h : r ∉ seg14_W) : val15 V0 (Proc.devRef .tc r) = val14 V0 (Proc.devRef .tc r) := seg14_keep _ r h

/-- The buffers the first stretch writes. -/
abbrev upto1 : List (Ref sig .tc) := seg0_W
/-- The buffers stretches 0 … 1 write. -/
abbrev upto2 : List (Ref sig .tc) := seg1_W ++ upto1
/-- The buffers stretches 0 … 2 write. -/
abbrev upto3 : List (Ref sig .tc) := seg2_W ++ upto2
/-- The buffers stretches 0 … 3 write. -/
abbrev upto4 : List (Ref sig .tc) := seg3_W ++ upto3
/-- The buffers stretches 0 … 4 write. -/
abbrev upto5 : List (Ref sig .tc) := seg4_W ++ upto4
/-- The buffers stretches 0 … 5 write. -/
abbrev upto6 : List (Ref sig .tc) := seg5_W ++ upto5
/-- The buffers stretches 0 … 6 write. -/
abbrev upto7 : List (Ref sig .tc) := seg6_W ++ upto6
/-- The buffers stretches 0 … 7 write. -/
abbrev upto8 : List (Ref sig .tc) := seg7_W ++ upto7
/-- The buffers stretches 0 … 8 write. -/
abbrev upto9 : List (Ref sig .tc) := seg8_W ++ upto8
/-- The buffers stretches 0 … 9 write. -/
abbrev upto10 : List (Ref sig .tc) := seg9_W ++ upto9
/-- The buffers stretches 0 … 10 write. -/
abbrev upto11 : List (Ref sig .tc) := seg10_W ++ upto10
/-- The buffers stretches 0 … 11 write. -/
abbrev upto12 : List (Ref sig .tc) := seg11_W ++ upto11
/-- The buffers stretches 0 … 12 write. -/
abbrev upto13 : List (Ref sig .tc) := seg12_W ++ upto12
/-- The buffers stretches 0 … 13 write. -/
abbrev upto14 : List (Ref sig .tc) := seg13_W ++ upto13
/-- The buffers stretches 0 … 14 write. -/
abbrev upto15 : List (Ref sig .tc) := seg14_W ++ upto14
theorem val1_arg (r : Ref sig .tc) (h : r ∉ upto1) : val1 V0 (Proc.devRef .tc r) = V0 (Proc.devRef .tc r) := val1_keep V0 r h
theorem val2_arg (r : Ref sig .tc) (h : r ∉ upto2) : val2 V0 (Proc.devRef .tc r) = V0 (Proc.devRef .tc r) :=
  (val2_keep V0 r fun hm => h (List.mem_append_left _ hm)).trans (val1_arg V0 r fun hm => h (List.mem_append_right _ hm))
theorem val3_arg (r : Ref sig .tc) (h : r ∉ upto3) : val3 V0 (Proc.devRef .tc r) = V0 (Proc.devRef .tc r) :=
  (val3_keep V0 r fun hm => h (List.mem_append_left _ hm)).trans (val2_arg V0 r fun hm => h (List.mem_append_right _ hm))
theorem val4_arg (r : Ref sig .tc) (h : r ∉ upto4) : val4 V0 (Proc.devRef .tc r) = V0 (Proc.devRef .tc r) :=
  (val4_keep V0 r fun hm => h (List.mem_append_left _ hm)).trans (val3_arg V0 r fun hm => h (List.mem_append_right _ hm))
theorem val5_arg (r : Ref sig .tc) (h : r ∉ upto5) : val5 V0 (Proc.devRef .tc r) = V0 (Proc.devRef .tc r) :=
  (val5_keep V0 r fun hm => h (List.mem_append_left _ hm)).trans (val4_arg V0 r fun hm => h (List.mem_append_right _ hm))
theorem val6_arg (r : Ref sig .tc) (h : r ∉ upto6) : val6 V0 (Proc.devRef .tc r) = V0 (Proc.devRef .tc r) :=
  (val6_keep V0 r fun hm => h (List.mem_append_left _ hm)).trans (val5_arg V0 r fun hm => h (List.mem_append_right _ hm))
theorem val7_arg (r : Ref sig .tc) (h : r ∉ upto7) : val7 V0 (Proc.devRef .tc r) = V0 (Proc.devRef .tc r) :=
  (val7_keep V0 r fun hm => h (List.mem_append_left _ hm)).trans (val6_arg V0 r fun hm => h (List.mem_append_right _ hm))
theorem val8_arg (r : Ref sig .tc) (h : r ∉ upto8) : val8 V0 (Proc.devRef .tc r) = V0 (Proc.devRef .tc r) :=
  (val8_keep V0 r fun hm => h (List.mem_append_left _ hm)).trans (val7_arg V0 r fun hm => h (List.mem_append_right _ hm))
theorem val9_arg (r : Ref sig .tc) (h : r ∉ upto9) : val9 V0 (Proc.devRef .tc r) = V0 (Proc.devRef .tc r) :=
  (val9_keep V0 r fun hm => h (List.mem_append_left _ hm)).trans (val8_arg V0 r fun hm => h (List.mem_append_right _ hm))
theorem val10_arg (r : Ref sig .tc) (h : r ∉ upto10) : val10 V0 (Proc.devRef .tc r) = V0 (Proc.devRef .tc r) :=
  (val10_keep V0 r fun hm => h (List.mem_append_left _ hm)).trans (val9_arg V0 r fun hm => h (List.mem_append_right _ hm))
theorem val11_arg (r : Ref sig .tc) (h : r ∉ upto11) : val11 V0 (Proc.devRef .tc r) = V0 (Proc.devRef .tc r) :=
  (val11_keep V0 r fun hm => h (List.mem_append_left _ hm)).trans (val10_arg V0 r fun hm => h (List.mem_append_right _ hm))
theorem val12_arg (r : Ref sig .tc) (h : r ∉ upto12) : val12 V0 (Proc.devRef .tc r) = V0 (Proc.devRef .tc r) :=
  (val12_keep V0 r fun hm => h (List.mem_append_left _ hm)).trans (val11_arg V0 r fun hm => h (List.mem_append_right _ hm))
theorem val13_arg (r : Ref sig .tc) (h : r ∉ upto13) : val13 V0 (Proc.devRef .tc r) = V0 (Proc.devRef .tc r) :=
  (val13_keep V0 r fun hm => h (List.mem_append_left _ hm)).trans (val12_arg V0 r fun hm => h (List.mem_append_right _ hm))
theorem val14_arg (r : Ref sig .tc) (h : r ∉ upto14) : val14 V0 (Proc.devRef .tc r) = V0 (Proc.devRef .tc r) :=
  (val14_keep V0 r fun hm => h (List.mem_append_left _ hm)).trans (val13_arg V0 r fun hm => h (List.mem_append_right _ hm))
theorem val15_arg (r : Ref sig .tc) (h : r ∉ upto15) : val15 V0 (Proc.devRef .tc r) = V0 (Proc.devRef .tc r) :=
  (val15_keep V0 r fun hm => h (List.mem_append_left _ hm)).trans (val14_arg V0 r fun hm => h (List.mem_append_right _ hm))

/-! After stretch 0: the two edge tables and the first dense step. -/
theorem val1_v3 : val1 V0 (Proc.devRef .tc main_v3) = src V0 := seg0_v3 V0
theorem val1_v6 : val1 V0 (Proc.devRef .tc main_v6) = dst V0 := seg0_v6 V0
theorem val1_v7 : val1 V0 (Proc.devRef .tc main_v7) = Cert.Chains.dense1 (V0 (Proc.devRef .tc main_arg0)) (V0 (Proc.devRef .tc main_arg3)) := seg0_v7 V0

/-! Layer 1: the per-node factors, the edges' weights, the message passing. -/
theorem val2_v3 : val2 V0 (Proc.devRef .tc main_v3) = src V0 := (val2_keep V0 main_v3 (by decide)).trans (val1_v3 V0)
theorem val2_v6 : val2 V0 (Proc.devRef .tc main_v6) = dst V0 := (val2_keep V0 main_v6 (by decide)).trans (val1_v6 V0)
theorem val2_v7 : val2 V0 (Proc.devRef .tc main_v7) = Cert.Chains.dense1 (V0 (Proc.devRef .tc main_arg0)) (V0 (Proc.devRef .tc main_arg3)) := (val2_keep V0 main_v7 (by decide)).trans (val1_v7 V0)
theorem val2_v15 : val2 V0 (Proc.devRef .tc main_v15) = Cert.Chains.dinvOf (dst V0) :=
  (seg1_v15 (val1 V0)).trans (congrArg Cert.Chains.dinvOf (val1_v6 V0))
theorem val3_v3 : val3 V0 (Proc.devRef .tc main_v3) = src V0 := (val3_keep V0 main_v3 (by decide)).trans (val2_v3 V0)
theorem val3_v6 : val3 V0 (Proc.devRef .tc main_v6) = dst V0 := (val3_keep V0 main_v6 (by decide)).trans (val2_v6 V0)
theorem val3_v7 : val3 V0 (Proc.devRef .tc main_v7) = Cert.Chains.dense1 (V0 (Proc.devRef .tc main_arg0)) (V0 (Proc.devRef .tc main_arg3)) := (val3_keep V0 main_v7 (by decide)).trans (val2_v7 V0)
theorem val3_v30 : val3 V0 (Proc.devRef .tc main_v30) = nrm V0 :=
  ((seg2_v30 (val2 V0)).trans (congr (congr (congrArg normFrom (val2_v15 V0)) (val2_v3 V0)) (val2_v6 V0))).trans
    (normOf_eq (src V0) (dst V0)).symm
theorem val4_v3 : val4 V0 (Proc.devRef .tc main_v3) = src V0 := (val4_keep V0 main_v3 (by decide)).trans (val3_v3 V0)
theorem val4_v6 : val4 V0 (Proc.devRef .tc main_v6) = dst V0 := (val4_keep V0 main_v6 (by decide)).trans (val3_v6 V0)
theorem val4_v43 : val4 V0 (Proc.devRef .tc main_v43) = agg1 V0 :=
  (seg3_v43 (val3 V0)).trans (congr (congr (congr (congrArg Cert.Chains.aggOf (val3_v3 V0)) (val3_v6 V0)) (val3_v30 V0)) (val3_v7 V0))

/-! The bias and clamp, then the next layer's dense step. -/
theorem val5_v3 : val5 V0 (Proc.devRef .tc main_v3) = src V0 := (val5_keep V0 main_v3 (by decide)).trans (val4_v3 V0)
theorem val5_v6 : val5 V0 (Proc.devRef .tc main_v6) = dst V0 := (val5_keep V0 main_v6 (by decide)).trans (val4_v6 V0)
theorem val5_v48 : val5 V0 (Proc.devRef .tc main_v48) = den2 V0 :=
  (seg4_v48 (val4 V0)).trans (congr (congrArg Cert.Chains.dense2 (congr (congrArg Cert.Chains.biasRelu (val4_v43 V0)) (val4_arg V0 main_arg4 (by decide)))) (val4_arg V0 main_arg5 (by decide)))

/-! Layer 2: the per-node factors, the edges' weights, the message passing. -/
theorem val6_v3 : val6 V0 (Proc.devRef .tc main_v3) = src V0 := (val6_keep V0 main_v3 (by decide)).trans (val5_v3 V0)
theorem val6_v6 : val6 V0 (Proc.devRef .tc main_v6) = dst V0 := (val6_keep V0 main_v6 (by decide)).trans (val5_v6 V0)
theorem val6_v48 : val6 V0 (Proc.devRef .tc main_v48) = den2 V0 := (val6_keep V0 main_v48 (by decide)).trans (val5_v48 V0)
theorem val6_v56 : val6 V0 (Proc.devRef .tc main_v56) = Cert.Chains.dinvOf (dst V0) :=
  (seg5_v56 (val5 V0)).trans (congrArg Cert.Chains.dinvOf (val5_v6 V0))
theorem val7_v3 : val7 V0 (Proc.devRef .tc main_v3) = src V0 := (val7_keep V0 main_v3 (by decide)).trans (val6_v3 V0)
theorem val7_v6 : val7 V0 (Proc.devRef .tc main_v6) = dst V0 := (val7_keep V0 main_v6 (by decide)).trans (val6_v6 V0)
theorem val7_v48 : val7 V0 (Proc.devRef .tc main_v48) = den2 V0 := (val7_keep V0 main_v48 (by decide)).trans (val6_v48 V0)
theorem val7_v71 : val7 V0 (Proc.devRef .tc main_v71) = nrm V0 :=
  ((seg6_v71 (val6 V0)).trans (congr (congr (congrArg normFrom (val6_v56 V0)) (val6_v3 V0)) (val6_v6 V0))).trans
    (normOf_eq (src V0) (dst V0)).symm
theorem val8_v3 : val8 V0 (Proc.devRef .tc main_v3) = src V0 := (val8_keep V0 main_v3 (by decide)).trans (val7_v3 V0)
theorem val8_v6 : val8 V0 (Proc.devRef .tc main_v6) = dst V0 := (val8_keep V0 main_v6 (by decide)).trans (val7_v6 V0)
theorem val8_v84 : val8 V0 (Proc.devRef .tc main_v84) = agg2 V0 :=
  (seg7_v84 (val7 V0)).trans (congr (congr (congr (congrArg Cert.Chains.aggOf (val7_v3 V0)) (val7_v6 V0)) (val7_v71 V0)) (val7_v48 V0))

/-! The bias and clamp, then the next layer's dense step. -/
theorem val9_v3 : val9 V0 (Proc.devRef .tc main_v3) = src V0 := (val9_keep V0 main_v3 (by decide)).trans (val8_v3 V0)
theorem val9_v6 : val9 V0 (Proc.devRef .tc main_v6) = dst V0 := (val9_keep V0 main_v6 (by decide)).trans (val8_v6 V0)
theorem val9_v89 : val9 V0 (Proc.devRef .tc main_v89) = den3 V0 :=
  (seg8_v89 (val8 V0)).trans (congr (congrArg Cert.Chains.dense2 (congr (congrArg Cert.Chains.biasRelu (val8_v84 V0)) (val8_arg V0 main_arg6 (by decide)))) (val8_arg V0 main_arg7 (by decide)))

/-! Layer 3: the per-node factors, the edges' weights, the message passing. -/
theorem val10_v3 : val10 V0 (Proc.devRef .tc main_v3) = src V0 := (val10_keep V0 main_v3 (by decide)).trans (val9_v3 V0)
theorem val10_v6 : val10 V0 (Proc.devRef .tc main_v6) = dst V0 := (val10_keep V0 main_v6 (by decide)).trans (val9_v6 V0)
theorem val10_v89 : val10 V0 (Proc.devRef .tc main_v89) = den3 V0 := (val10_keep V0 main_v89 (by decide)).trans (val9_v89 V0)
theorem val10_v97 : val10 V0 (Proc.devRef .tc main_v97) = Cert.Chains.dinvOf (dst V0) :=
  (seg9_v97 (val9 V0)).trans (congrArg Cert.Chains.dinvOf (val9_v6 V0))
theorem val11_v3 : val11 V0 (Proc.devRef .tc main_v3) = src V0 := (val11_keep V0 main_v3 (by decide)).trans (val10_v3 V0)
theorem val11_v6 : val11 V0 (Proc.devRef .tc main_v6) = dst V0 := (val11_keep V0 main_v6 (by decide)).trans (val10_v6 V0)
theorem val11_v89 : val11 V0 (Proc.devRef .tc main_v89) = den3 V0 := (val11_keep V0 main_v89 (by decide)).trans (val10_v89 V0)
theorem val11_v112 : val11 V0 (Proc.devRef .tc main_v112) = nrm V0 :=
  ((seg10_v112 (val10 V0)).trans (congr (congr (congrArg normFrom (val10_v97 V0)) (val10_v3 V0)) (val10_v6 V0))).trans
    (normOf_eq (src V0) (dst V0)).symm
theorem val12_v3 : val12 V0 (Proc.devRef .tc main_v3) = src V0 := (val12_keep V0 main_v3 (by decide)).trans (val11_v3 V0)
theorem val12_v6 : val12 V0 (Proc.devRef .tc main_v6) = dst V0 := (val12_keep V0 main_v6 (by decide)).trans (val11_v6 V0)
theorem val12_v125 : val12 V0 (Proc.devRef .tc main_v125) = agg3 V0 :=
  (seg11_v125 (val11 V0)).trans (congr (congr (congr (congrArg Cert.Chains.aggOf (val11_v3 V0)) (val11_v6 V0)) (val11_v112 V0)) (val11_v89 V0))

/-! The third layer's bias and clamp, the per-graph average, the last affine map. -/
theorem val13_v129 : val13 V0 (Proc.devRef .tc main_v129) = act3 V0 :=
  (seg12_v129 (val12 V0)).trans (congr (congrArg Cert.Chains.biasRelu (val12_v125 V0)) (val12_arg V0 main_arg8 (by decide)))
theorem val14_v141 : val14 V0 (Proc.devRef .tc main_v141) = pool V0 :=
  (seg13_v141 (val13 V0)).trans (congr (congrArg Cert.Chains.poolOf (val13_arg V0 main_arg2 (by decide))) (val13_v129 V0))
theorem val15_v145 : val15 V0 (Proc.devRef .tc main_v145) = Cert.Chains.head (pool V0) (V0 (Proc.devRef .tc main_arg9)) (V0 (Proc.devRef .tc main_arg10)) :=
  (seg14_v145 (val14 V0)).trans (congr (congr (congrArg Cert.Chains.head (val14_v141 V0)) (val14_arg V0 main_arg9 (by decide))) (val14_arg V0 main_arg10 (by decide)))

/-- @main's result, after all its operations, is the network of the arguments' launch contents. -/
theorem out_eq : after ops V0 (Proc.devRef .tc main_v145)
    = Cert.Chains.model (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (congrFun (after_ops V0) _).trans ((val15_v145 V0).trans (model_eq V0))
/-- A buffer no operation writes is unchanged after all of them. -/
theorem arg_eq (r : Ref sig .tc) (h : r ∉ upto15) : after ops V0 (Proc.devRef .tc r) = V0 (Proc.devRef .tc r) :=
  (congrFun (after_ops V0) _).trans (val15_arg V0 r h)

/-- On every device, for any float values, from any memory with zero counters: every weakly fair execution of @main
    terminates with its result at the network of the arguments' launch contents and the arguments unchanged. -/
theorem run_model (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v145) = Cert.Chains.model (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v145).trans (out_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide)),
      (h c main_arg9).trans (arg_eq (launchContents m c) main_arg9 (by decide)),
      (h c main_arg10).trans (arg_eq (launchContents m c) main_arg10 (by decide))⟩)
    (ValueP.run m ρ)

end Cert.ReferenceIdeal.RefValue

end
-- ==== Proof.lean ====
/-
  A three-layer graph network (dense step, message passing along the edges, bias, the larger of that and 0; then the
  per-graph average and a last affine map) computed by seven kernel launches among host operations, against the same
  network computed by host operations alone.

  At the extended reals both programs compute ONE function of the argument arrays, `Cert.Chains.model`.  The sparse
  steps (gather the sources' rows, scale by the edges' weights, add up at the destinations; the per-graph average) are
  the same host operations in both programs and are carried as named functions, never opened.  The dense steps are
  where the programs differ: the kernel multiplies tile by tile with operands cast to a narrower float format (the
  identity at the extended reals) into a zero accumulator, which row by row is the whole matrix product; it adds a bias
  laid as a one-row table where the reference broadcasts the bias vector, the same array.  No law beyond these is used,
  so the finiteness of the inputs is not needed.

  The kernel's frames are the generated ones; its value is read off the same run with the result buffer named.  The
  reference's run and value are read stretch by stretch off its list of host operations.
-/
import proofs.«145999_j15487652069425_1_alg».proof.Defs
import proofs.«145999_j15487652069425_1_alg».proof.Proof.Gen.Kernel
import proofs.«145999_j15487652069425_1_alg».proof.Proof.Gen.Kernel.Frame
import proofs.«145999_j15487652069425_1_alg».proof.Proof.Gen.KernelIdeal
import proofs.«145999_j15487652069425_1_alg».proof.Proof.Gen.KernelIdeal.Frame
import proofs.«145999_j15487652069425_1_alg».proof.Proof.Gen.ReferenceIdeal
import proofs.«145999_j15487652069425_1_alg».proof.Proof.Gen.Pre_finite_inputs
import proofs.«145999_j15487652069425_1_alg».proof.Proof.KValue
import proofs.«145999_j15487652069425_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.RefValue.run_model (F := Ideal) m ρ)

/-- The ideal pass rewrote nothing: the idealization is the program's own text read at the extended reals. -/
theorem preserves : Cert.preserves_Kernel_KernelIdeal := trivial

/-- From memories agreeing on the arguments both programs end with the network of the arguments in their result
    buffers. -/
theorem algebraic : Cert.algebraic_KernelIdeal_ReferenceIdeal := by
  intro m ρ m' ρ' _ hagree
  refine ⟨_, Cert.KernelIdeal.Net.run_model m ρ, ?_⟩
  refine (θ_run Cert.ReferenceIdeal.defs _ _).mono (fun _ h c => ⟨(h c).1.trans ?_, (h c).2⟩)
    (Cert.ReferenceIdeal.RefValue.run_model (F := Ideal) m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
